-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S1600000x128 : Shape := ⟨2, ![1600000, 128]⟩
abbrev S1x128 : Shape := ⟨2, ![1, 128]⟩
abbrev S4000x1 : Shape := ⟨2, ![4000, 1]⟩
abbrev S1x1 : Shape := ⟨2, ![1, 1]⟩

abbrev nBuf : Space → Nat
  | .hbm => 120
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000x1, .f32⟩
  | .hbm, ⟨51, _⟩ => ⟨S100000x128, .f32⟩
  | .hbm, ⟨52, _⟩ => ⟨S100000x128, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .bf16⟩
  | .hbm, ⟨62, _⟩ => ⟨S1600000x128, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S1x128, .f32⟩
  | .hbm, ⟨70, _⟩ => ⟨S100000x128, .bf16⟩
  | .hbm, ⟨71, _⟩ => ⟨S100000x128, .f32⟩
  | .hbm, ⟨72, _⟩ => ⟨S100000x128, .bf16⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .bf16⟩
  | .hbm, ⟨82, _⟩ => ⟨S1600000x128, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S1x128, .f32⟩
  | .hbm, ⟨90, _⟩ => ⟨S100000x128, .bf16⟩
  | .hbm, ⟨91, _⟩ => ⟨S100000x128, .f32⟩
  | .hbm, ⟨92, _⟩ => ⟨S100000x1, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x1, .f32⟩
  | .hbm, ⟨102, _⟩ => ⟨S1600000x1, .f32⟩
  | .hbm, ⟨103, _⟩ => ⟨S_, .f32⟩
  | .hbm, ⟨104, _⟩ => ⟨S100000x1, .f32⟩
  | .hbm, ⟨105, _⟩ => ⟨S1600000x1, .i32⟩
  | .hbm, ⟨106, _⟩ => ⟨S100000x1, .f32⟩
  | .hbm, ⟨107, _⟩ => ⟨S100000x1, .f32⟩
  | .hbm, ⟨108, _⟩ => ⟨S100000x1, .f32⟩
  | .hbm, ⟨109, _⟩ => ⟨S1x1, .f32⟩
  | .hbm, ⟨110, _⟩ => ⟨S100000x1, .f32⟩
  | .hbm, ⟨111, _⟩ => ⟨S100000x1, .f32⟩
  | .hbm, ⟨112, _⟩ => ⟨S100000x1, .f32⟩
  | .hbm, ⟨113, _⟩ => ⟨S100000x1, .f32⟩
  | .hbm, ⟨114, _⟩ => ⟨S_, .f32⟩
  | .hbm, ⟨115, _⟩ => ⟨S100000x1, .f32⟩
  | .hbm, ⟨116, _⟩ => ⟨S100000x1, .f32⟩
  | .hbm, ⟨117, _⟩ => ⟨S_, .f32⟩
  | .hbm, ⟨118, _⟩ => ⟨S100000x1, .f32⟩
  | .hbm, ⟨119, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S4000x128, .bf16⟩
  | .local _ .vmem, ⟨15, _⟩ => ⟨S4000x128, .bf16⟩
  | .local _ .vmem, ⟨16, _⟩ => ⟨S4000x128, .bf16⟩
  | .local _ .vmem, ⟨17, _⟩ => ⟨S4000x128, .bf16⟩
  | .local _ .vmem, ⟨18, _⟩ => ⟨S128x128, .f32⟩
  | .local _ .vmem, ⟨19, _⟩ => ⟨S4000x128, .f32⟩
  | .local _ .vmem, ⟨20, _⟩ => ⟨S4000x128, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x1, .f32⟩
  | .local _ .vmem, ⟨28, _⟩ => ⟨S4000x1, .f32⟩
  | .local _ .vmem, ⟨29, _⟩ => ⟨S1x128, .f32⟩
  | .local _ .vmem, ⟨30, _⟩ => ⟨S4000x128, .bf16⟩
  | .local _ .vmem, ⟨31, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32_0 : Ref sig .tc := ⟨.hbm, 51, rfl⟩
abbrev main_v32_1 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .bf16 = 32 ∨ (Rect.block (s := S100000x128) S4000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .bf16 = 32 ∨ (Rect.block (s := S100000x128) S4000x128.size (cc3_transform_4 i) (hinb3_4 i)).WholeWords (EltTy.packing .bf16)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32_0) S4000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48_0) S4000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48_1) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48_0) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x1, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x1, .f32⟩
  | 59 => ⟨S1600000x1, .f32⟩
  | 60 => ⟨S_, .f32⟩
  | 61 => ⟨S100000x1, .f32⟩
  | 62 => ⟨S1600000x1, .i32⟩
  | 63 => ⟨S100000x1, .f32⟩
  | 64 => ⟨S100000, .f32⟩
  | 65 => ⟨S100000x1, .f32⟩
  | 66 => ⟨S100000x1, .f32⟩
  | 67 => ⟨S100000x1, .f32⟩
  | 68 => ⟨S1x1, .f32⟩
  | 69 => ⟨S100000x1, .f32⟩
  | 70 => ⟨S100000x1, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S_, .f32⟩
  | 77 => ⟨S100000x1, .f32⟩
  | 78 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_c_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_21 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩
abbrev main_v100 : Ref sig .tc := ⟨.hbm, 140, rfl⟩
abbrev main_cst_22 : Ref sig .tc := ⟨.hbm, 141, rfl⟩
abbrev main_v101 : Ref sig .tc := ⟨.hbm, 142, rfl⟩
abbrev main_cst_23 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_24 : Ref sig .tc := ⟨.hbm, 147, rfl⟩
abbrev main_v105 : Ref sig .tc := ⟨.hbm, 148, rfl⟩
abbrev main_v106 : Ref sig .tc := ⟨.hbm, 149, rfl⟩
abbrev main_cst_25 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_26 : Ref sig .tc := ⟨.hbm, 154, rfl⟩
abbrev main_call4_v0 : Ref sig .tc := ⟨.hbm, 155, rfl⟩
abbrev main_call4_v1 : Ref sig .tc := ⟨.hbm, 156, rfl⟩
abbrev main_v110 : Ref sig .tc := ⟨.hbm, 157, rfl⟩
abbrev main_c_27 : Ref sig .tc := ⟨.hbm, 158, rfl⟩
abbrev main_v111 : Ref sig .tc := ⟨.hbm, 159, rfl⟩
abbrev main_v112 : Ref sig .tc := ⟨.hbm, 160, rfl⟩
abbrev main_c_28 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_29 : Ref sig .tc := ⟨.hbm, 167, rfl⟩
abbrev main_v118 : Ref sig .tc := ⟨.hbm, 168, rfl⟩
abbrev main_v119 : Ref sig .tc := ⟨.hbm, 169, rfl⟩
abbrev main_c_30 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_31 : Ref sig .tc := ⟨.hbm, 178, rfl⟩
abbrev main_v127 : Ref sig .tc := ⟨.hbm, 179, rfl⟩
abbrev main_v128 : Ref sig .tc := ⟨.hbm, 180, rfl⟩
abbrev main_c_32 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_33 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_34 : Ref sig .tc := ⟨.hbm, 201, rfl⟩
abbrev main_v147 : Ref sig .tc := ⟨.hbm, 202, rfl⟩
abbrev main_v148 : Ref sig .tc := ⟨.hbm, 203, rfl⟩
abbrev main_cst_35 : Ref sig .tc := ⟨.hbm, 204, rfl⟩
abbrev main_v149 : Ref sig .tc := ⟨.hbm, 205, rfl⟩
abbrev main_v150 : Ref sig .tc := ⟨.hbm, 206, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.KernelRun.lean ====
/-
  The idealized kernel's run with its RESULT named.

  The program is ten segments: stretches of host operations and four pipelined kernel regions. The launch theorem over
  segments leaves, on every core, each unscoped buffer at the contents the last boundary's fold gives it; the frame
  reads only the argument buffers back from that. Here the same launch is read at the result buffer as well: after
  every weakly fair execution the result array is the fold's value at the result reference, and the arguments are as
  launched.
-/
import proofs.«136952_j80934363726533_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result array at the last boundary's contents and the
    argument arrays as launched. -/
theorem run : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.ValueRun

end
-- ==== Proof.RefStages.lean ====
/-
  The reference program's result as a composition of a few named stages.

  The reference is three graph-convolution layers on the host. Every layer reads the same graph quantities, which
  depend on the edge list alone: the source and destination vectors, the inverse square root `dinv` of the degree
  (one plus the number of edges into a node), the edge weight `norm[e] = dinv[src e] · dinv[dst e]` as a column, and
  `dinv²` as a column. A layer maps the dense product `h` of its input by its weight matrix to
  `agg + dinv² · h + b`, where `agg` scatter-adds the gathered rows `norm[e] · h[src e]` into row `dst e`; the first
  two layers end in `max (·, 0)`, the last in the logistic function.
  The run's result term is exactly this composition; the stages are named here so that the kernel's program, which
  computes the graph quantities once, can be compared with it stage by stage.
-/
import proofs.«136952_j80934363726533_2_alg».proof.Proof.RefRun
import Idealize.ShloMosaic.PureOps.Ideal

noncomputable section

namespace Cert.ReferenceIdeal.Stages

open Cert.ReferenceIdeal Cert.ReferenceIdeal.Gen Idealize.ShloMosaic Idealize.ShloMosaic.TcCoe Idealize.SL.Sem

abbrev Edges := IVec S2x1600000 32
abbrev EVecI := IVec S1600000 32
abbrev ECol := FVec Ideal S1600000x1 .f32
abbrev NVec := FVec Ideal S100000 .f32
abbrev NCol := FVec Ideal S100000x1 .f32
abbrev NF := FVec Ideal S100000x128 .f32

/-- Row 0 of the edge list: the source node of each edge. -/
def srcv (e : Edges) : EVecI :=
  shapeCast _ (extractStridedSlice S1x1600000 ![0, 0] e slices_S2x1600000_S1x1600000_0_0) shapeCasts_S1x1600000_S1600000
/-- Row 1 of the edge list: the destination node of each edge. -/
def dstv (e : Edges) : EVecI :=
  shapeCast _ (extractStridedSlice S1x1600000 ![1, 0] e slices_S2x1600000_S1x1600000_1_0) shapeCasts_S1x1600000_S1600000
/-- A node index read the way array indexing reads it: a negative index counts from the end. -/
def wrap (v : EVecI) : EVecI :=
  select (cmpi .slt v (broadcastInDim S1600000 ![] bcast_S_S1600000 (constantI S_ 32 0#32)))
    (addi v (broadcastInDim S1600000 ![] bcast_S_S1600000 (constantI S_ 32 100000#32))) v
/-- An index vector as the one-column index array a gather or a scatter takes. -/
def icol (v : EVecI) : IVec S1600000x1 32 :=
  broadcastInDim S1600000x1 ![0] bcast_S1600000_S1600000x1_0 v
/-- The degree of every node: one plus the number of edges into it. -/
def deg (e : Edges) : NVec :=
  addf (broadcastInDim S100000 ![] bcast_S_S100000 (constant (F := Ideal) S_ .f32 0x3F800000#32))
    (Host.scatterAdd scatter_S100000_S1600000x1_S1600000_n_0_0_1
      (broadcastInDim S100000 ![] bcast_S_S100000 (constant (F := Ideal) S_ .f32 0x00000000#32)) (icol (dstv e))
      (broadcastInDim S1600000 ![] bcast_S_S1600000 (constant (F := Ideal) S_ .f32 0x3F800000#32)))
/-- Where the degree is positive. -/
def degPos (e : Edges) : IVec S100000 1 :=
  cmpf .ogt (deg e) (broadcastInDim S100000 ![] bcast_S_S100000 (constant (F := Ideal) S_ .f32 0x00000000#32))
/-- The inverse square root of the degree. -/
def rsq (e : Edges) : NVec := Host.rsqrt (deg e)
/-- The zero scalar the selection falls back to. -/
def zero0 : FVec Ideal S_ .f32 := constant (F := Ideal) S_ .f32 0x00000000#32
/-- `dinv`: the inverse square root of the degree where the degree is positive, else zero. -/
def dinv (e : Edges) : NVec :=
  select (degPos e) (rsq e) (broadcastInDim S100000 ![] bcast_S_S100000 (id zero0))
/-- The edge weights `dinv[src] · dinv[dst]`, as a vector over the edges. -/
def normv (e : Edges) : FVec Ideal S1600000 .f32 :=
  mulf (Host.gather gather_S100000_S1600000x1_S1600000_n_0_n_n_0_1_1 (dinv e) (icol (wrap (srcv e))))
    (Host.gather gather_S100000_S1600000x1_S1600000_n_0_n_n_0_1_1 (dinv e) (icol (wrap (dstv e))))
/-- The edge weights as a column. -/
def normcol (e : Edges) : ECol := broadcastInDim S1600000x1 ![0] bcast_S1600000_S1600000x1_0 (normv e)
/-- `dinv²` as a column over the nodes. -/
def dinv2col (e : Edges) : NCol := broadcastInDim S100000x1 ![0] bcast_S100000_S100000x1_0 (mulf (dinv e) (dinv e))

/-- The messages of a 128-wide layer: row `e` is `norm[e] · h[src e]`. -/
def msgs (h : NF) (nc : ECol) (e : Edges) : FVec Ideal S1600000x128 .f32 :=
  mulf (broadcastInDim S1600000x128 ![0, 1] bcast_S1600000x1_S1600000x128_0_1 nc)
    (Host.gather gather_S100000x128_S1600000x1_S1600000x128_1_0_n_n_0_1_1128 h (icol (wrap (srcv e))))
/-- The messages summed into their destination rows. -/
def agg (u : FVec Ideal S1600000x128 .f32) (e : Edges) : NF :=
  Host.scatterAdd scatter_S100000x128_S1600000x1_S1600000x128_1_0_0_1
    (broadcastInDim S100000x128 ![] bcast_S_S100000x128 (constant (F := Ideal) S_ .f32 0x00000000#32)) (icol (dstv e)) u
/-- The dense product of the node features by a 128 × 128 weight matrix. -/
def mm (x : NF) (w : FVec Ideal S128x128 .f32) : NF :=
  Host.dotGeneral dot_S100000x128_S128x128_S100000x128_1_0_0_1_n_n none x w
/-- The epilogue of a 128-wide layer: `max (a + dinv² · h + b, 0)`. -/
def close (a h : NF) (dc : NCol) (brow : FVec Ideal S1x128 .f32) : NF :=
  maximumf (addf (addf a (mulf (broadcastInDim S100000x128 ![0, 1] bcast_S100000x1_S100000x128_0_1 dc) h))
      (broadcastInDim S100000x128 ![0, 1] bcast_S1x128_S100000x128_0_1 brow))
    (broadcastInDim S100000x128 ![] bcast_S_S100000x128 (constant (F := Ideal) S_ .f32 0x00000000#32))
/-- A bias vector as a row. -/
def brow (b : FVec Ideal S128 .f32) : FVec Ideal S1x128 .f32 :=
  broadcastInDim S1x128 ![1] bcast_S128_S1x128_1 b
/-- One 128-wide layer from its dense product. -/
def layer (h : NF) (e : Edges) (b : FVec Ideal S128 .f32) : NF :=
  close (agg (msgs h (normcol e) e) e) h (dinv2col e) (brow b)

/-- The last layer (width one) from its dense product, the graph columns and the bias: the logistic function of
    `agg + dinv² · h + b`, written `1 / (1 + exp (-·))`. -/
def last (h3 : NCol) (nc : ECol) (dc : NCol) (e : Edges) (b3 : FVec Ideal S1 .f32) : NCol :=
  Host.divf (broadcastInDim S100000x1 ![] bcast_S_S100000x1 (constant (F := Ideal) S_ .f32 0x3F800000#32))
    (addf (broadcastInDim S100000x1 ![] bcast_S_S100000x1 (constant (F := Ideal) S_ .f32 0x3F800000#32))
      (Host.exp (Host.negf (addf (addf
        (Host.scatterAdd scatter_S100000x1_S1600000x1_S1600000x1_1_0_0_1
          (broadcastInDim S100000x1 ![] bcast_S_S100000x1 (constant (F := Ideal) S_ .f32 0x00000000#32)) (icol (dstv e))
          (mulf nc (Host.gather gather_S100000x1_S1600000x1_S1600000x1_1_0_n_n_0_1_11 h3 (icol (wrap (srcv e))))))
        (mulf dc h3))
        (broadcastInDim S100000x1 ![0, 1] bcast_S1x1_S100000x1_0_1 (broadcastInDim S1x1 ![1] bcast_S1_S1x1_1 b3))))))
/-- The dense product of the last layer. -/
def mm3 (x : NF) (w : FVec Ideal S128x1 .f32) : NCol :=
  Host.dotGeneral dot_S100000x128_S128x1_S100000x1_1_0_0_1_n_n none x w

/-- The whole reference as a function of its eight arguments. -/
def whole (x0 : NF) (e : Edges) (w1 : FVec Ideal S128x128 .f32) (b1 : FVec Ideal S128 .f32)
    (w2 : FVec Ideal S128x128 .f32) (b2 : FVec Ideal S128 .f32)
    (w3 : FVec Ideal S128x1 .f32) (b3 : FVec Ideal S1 .f32) : NCol :=
  last (mm3 (layer (mm (layer (mm x0 w1) e b1) w2) e b2) w3) (normcol e) (dinv2col e) e b3

set_option maxRecDepth 65536 in
/-- The run's result term is the composition of the stages. -/
theorem res_eq (m : (ℓ : Loc nD τ sig) → Buf (Elt Ideal) ℓ) (c : Dev nD) :
    Cert.ReferenceIdeal.ValueP.res_main_v150 m c
      = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v150
  rfl

end Cert.ReferenceIdeal.Stages

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.LibReshapeColumn.lean ====
/-
  A vector laid out as a column, two ways.

  A reshape of a vector `[n]` to the column `[n, 1]` and a `broadcast_in_dim` of the same vector along axis 0 into
  `[n, 1]` are one array: both read, at `(P, 0)`, the vector at `P`. This is `v.reshape(n, 1)` against `v[:, None]`.
  (`n ≠ 1`, as for the column form of the broadcast.)
-/
import proofs.«136952_j80934363726533_2_alg».proof.Proof.LibKeepdims
import proofs.«136952_j80934363726533_2_alg».proof.Proof.LibColumnInDim

namespace Cert.Lib.ReshapeColumn

open Idealize.ShloMosaic Idealize.ShloMosaic.ValueIdx

variable {α : Type}

/-- Every index of `[n, 1]` is `(P, u)` for its two coordinates. -/
theorem exists_ix2 {a b : ℕ} (i : (⟨2, ![a, b]⟩ : Shape).Idx) : ∃ (p : Fin a) (q : Fin b), i = ix2 p q :=
  ⟨i 0, i 1, eq_ix2 i⟩

/-- The reshape `[n] → [n, 1]` is the broadcast of the vector along axis 0 into `[n, 1]`. -/
theorem shapeCast_eq_inDim {n : ℕ} (hn : n ≠ 1) (v : (⟨1, ![n]⟩ : Shape).Idx → α)
    (h : (⟨1, ![n]⟩ : Shape).ShapeCasts ⟨2, ![n, 1]⟩) (h' : (⟨1, ![n]⟩ : Shape).BroadcastsInDim ⟨2, ![n, 1]⟩ ![0]) :
    shapeCast ⟨2, ![n, 1]⟩ v h = broadcastInDim ⟨2, ![n, 1]⟩ ![0] h' v := by
  funext i
  obtain ⟨p, u, rfl⟩ := exists_ix2 i
  rw [Cert.Keepdims.shapeCast_a_a1_apply, Cert.Lib.ColumnInDim.column_apply hn]

end Cert.Lib.ReshapeColumn
-- ==== Proof.Chain3.lean ====
/-
  The idealized kernel's buffers when its first region is entered.

  Before the first call the program computes, on the host, the graph quantities every layer uses: the source and
  destination vectors (rows of the edge list), the inverse square root of the degree, its square as a column and the
  edge weights as a column. They are the reference's own stages, computed by the same operations, except that the two
  columns are made by a reshape where the reference spreads the vector along a new axis: the same arrays. The
  argument arrays are untouched. The three stretches of host operations are read one after the other, each from the
  values the previous one left.
-/
import proofs.«136952_j80934363726533_2_alg».proof.Proof.Gen.KernelIdeal.Frame
import proofs.«136952_j80934363726533_2_alg».proof.Proof.RefStages
import proofs.«136952_j80934363726533_2_alg».proof.Proof.LibReshapeColumn

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge list as launched. -/
abbrev edges := m ((c : Thread nD τ).loc main_arg1)
/-- The first layer's dense product, its output, the second layer's dense product and its output, as the reference's
    stages of the launched arguments. -/
abbrev H1 := Cert.ReferenceIdeal.Stages.mm (m ((c : Thread nD τ).loc main_arg0)) (m ((c : Thread nD τ).loc main_arg2))
abbrev X1 := Cert.ReferenceIdeal.Stages.layer (H1 m c) (edges m c) (m ((c : Thread nD τ).loc main_arg3))
abbrev H2 := Cert.ReferenceIdeal.Stages.mm (X1 m c) (m ((c : Thread nD τ).loc main_arg4))
abbrev X2 := Cert.ReferenceIdeal.Stages.layer (H2 m c) (edges m c) (m ((c : Thread nD τ).loc main_arg5))

/-! ## After the first stretch: the index vectors, the degree test and the inverse square root -/

theorem at1_v1 : W1 m ρ c (Proc.devRef .tc main_v1) = Cert.ReferenceIdeal.Stages.srcv (edges m c) := by
  show StableHlo.after hostOps0 (W0 m ρ c) (Proc.devRef .tc main_v1) = _
  after_results_simp
  rfl
theorem at1_v3 : W1 m ρ c (Proc.devRef .tc main_v3) = Cert.ReferenceIdeal.Stages.dstv (edges m c) := by
  show StableHlo.after hostOps0 (W0 m ρ c) (Proc.devRef .tc main_v3) = _
  after_results_simp
  rfl
theorem at1_v11 : W1 m ρ c (Proc.devRef .tc main_v11) = Cert.ReferenceIdeal.Stages.degPos (edges m c) := by
  show StableHlo.after hostOps0 (W0 m ρ c) (Proc.devRef .tc main_v11) = _
  after_results_simp
  rfl
theorem at1_v12 : W1 m ρ c (Proc.devRef .tc main_v12) = Cert.ReferenceIdeal.Stages.rsq (edges m c) := by
  show StableHlo.after hostOps0 (W0 m ρ c) (Proc.devRef .tc main_v12) = _
  after_results_simp
  rfl
theorem at1_cst3 : W1 m ρ c (Proc.devRef .tc main_cst_3) = Cert.ReferenceIdeal.Stages.zero0 := by
  show StableHlo.after hostOps0 (W0 m ρ c) (Proc.devRef .tc main_cst_3) = _
  after_results_simp
  rfl

/-! ## After the second stretch: `dinv` -/

/-- A broadcast of equal operands. -/
theorem inDim_congr {s t : Shape} {α : Type} {dims : Fin s.rank → Fin t.rank} {h h' : s.BroadcastsInDim t dims} {x x' : s.Idx → α}
    (hx : x = x') : broadcastInDim t dims h x = broadcastInDim t dims h' x' := by subst hx; rfl
/-- A selection of equal operands. -/
theorem select_congr {s : Shape} {α : Type} {p p' : IVec s 1} {a a' b b' : s.Idx → α} (hp : p = p') (ha : a = a') (hb : b = b') :
    select p a b = select p' a' b' := by subst hp ha hb; rfl

theorem at2_v13 : W2 m ρ c (Proc.devRef .tc main_v13) = Cert.ReferenceIdeal.Stages.dinv (edges m c) := by
  show StableHlo.after hostOps0_1 (W1 m ρ c) (Proc.devRef .tc main_v13) = _
  have h11 := at1_v11 m ρ c
  have h12 := at1_v12 m ρ c
  have h3 := at1_cst3 m ρ c
  generalize W1 m ρ c = V1 at h11 h12 h3 ⊢
  after_results_simp
  rw [h11, h12, h3]
  unfold Cert.ReferenceIdeal.Stages.dinv
  generalize Cert.ReferenceIdeal.Stages.degPos (edges m c) = a
  generalize Cert.ReferenceIdeal.Stages.rsq (edges m c) = b
  generalize Cert.ReferenceIdeal.Stages.zero0 = z
  -- every call-site transport of a value between a buffer's type and the value's own type is the identity
  refine eq_of_heq ((cast_heq _ _).trans (heq_of_eq ?_))
  refine select_congr (eq_of_heq (cast_heq _ _)) (eq_of_heq (cast_heq _ _)) ?_
  refine (eq_of_heq ((cast_heq _ _).trans (cast_heq _ _))).trans ?_
  refine inDim_congr ?_
  exact (eq_of_heq ((cast_heq _ _).trans (cast_heq _ _))).trans (congrArg id (eq_of_heq (cast_heq _ _)))
theorem at2_v1 : W2 m ρ c (Proc.devRef .tc main_v1) = Cert.ReferenceIdeal.Stages.srcv (edges m c) := by
  show StableHlo.after hostOps0_1 (W1 m ρ c) (Proc.devRef .tc main_v1) = _
  have h := at1_v1 m ρ c
  generalize W1 m ρ c = V1 at h ⊢
  after_results_simp
  exact h
theorem at2_v3 : W2 m ρ c (Proc.devRef .tc main_v3) = Cert.ReferenceIdeal.Stages.dstv (edges m c) := by
  show StableHlo.after hostOps0_1 (W1 m ρ c) (Proc.devRef .tc main_v3) = _
  have h := at1_v3 m ρ c
  generalize W1 m ρ c = V1 at h ⊢
  after_results_simp
  exact h

/-! ## After the third stretch (the first region's entry): the two columns -/

theorem at3_v1 : W3 m ρ c (Proc.devRef .tc main_v1) = Cert.ReferenceIdeal.Stages.srcv (edges m c) := by
  show StableHlo.after hostOps0_2 (W2 m ρ c) (Proc.devRef .tc main_v1) = _
  have h := at2_v1 m ρ c
  generalize W2 m ρ c = V2 at h ⊢
  after_results_simp
  exact h
theorem at3_v3 : W3 m ρ c (Proc.devRef .tc main_v3) = Cert.ReferenceIdeal.Stages.dstv (edges m c) := by
  show StableHlo.after hostOps0_2 (W2 m ρ c) (Proc.devRef .tc main_v3) = _
  have h := at2_v3 m ρ c
  generalize W2 m ρ c = V2 at h ⊢
  after_results_simp
  exact h

/-- `dinv²` as a column: the kernel's reshape is the reference's spread of the vector along a new axis. -/
theorem at3_v15 : W3 m ρ c (Proc.devRef .tc main_v15) = Cert.ReferenceIdeal.Stages.dinv2col (edges m c) := by
  show StableHlo.after hostOps0_2 (W2 m ρ c) (Proc.devRef .tc main_v15) = _
  have h13 := at2_v13 m ρ c
  generalize W2 m ρ c = V2 at h13 ⊢
  after_results_simp
  rw [h13]
  exact (Cert.Lib.ReshapeColumn.shapeCast_eq_inDim (n := 100000) (by omega) _ _ _).trans rfl

/-- The edge weights as a column, likewise. -/
theorem at3_v31 : W3 m ρ c (Proc.devRef .tc main_v31) = Cert.ReferenceIdeal.Stages.normcol (edges m c) := by
  show StableHlo.after hostOps0_2 (W2 m ρ c) (Proc.devRef .tc main_v31) = _
  have h13 := at2_v13 m ρ c
  have h1 := at2_v1 m ρ c
  have h3 := at2_v3 m ρ c
  generalize W2 m ρ c = V2 at h13 h1 h3 ⊢
  after_results_simp
  rw [h13, h1, h3]
  exact (Cert.Lib.ReshapeColumn.shapeCast_eq_inDim (n := 1600000) (by omega) _ _ _).trans rfl

/-! The argument arrays are untouched by the host operations before the first call. -/

theorem at3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem at3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem at3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem at3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem at3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem at3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem at3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

end Cert.KernelIdeal.Chain

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibRowInDim.lean ====
/-
  The row forms of `broadcast_in_dim`, read at an index given by coordinates: a vector `[b]` laid as the row
  `[1, b]` (its axis sent to axis 1), and a row `[1, b]` repeated down the rows to `[a, b]` (axes sent to
  themselves). This is how a per-column quantity — a bias — is added to every row of a matrix: both read the
  operand at the column coordinate alone. (`b ≠ 1`: on an axis of extent one a broadcast reads coordinate 0
  whatever the index, and the statements would need no hypothesis but another proof.)
-/
import Idealize.ShloMosaic.Lib.Pipeline.Value
import Idealize.ShloMosaic.Lib.ValueIdx

namespace Cert.Lib.RowInDim

open Idealize.ShloMosaic Idealize.ShloMosaic.ValueIdx

variable {α : Type}

/-- A vector `[b]` laid as the row `[1, b]` reads, at `(u, q)`, the vector at `q`. -/
theorem row_apply {b : ℕ} (hb : b ≠ 1) (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) (fun a => match a with
    | ⟨0, _⟩ => by show q.val = if b = 1 then 0 else q.val; rw [if_neg hb])

/-- A row `[1, b]` repeated down the rows to `[a, b]` reads, at `(P, q)`, the row's entry of column `q`. -/
theorem repeat_apply {a b : ℕ} (hb : b ≠ 1) (h : (⟨2, ![1, b]⟩ : Shape).BroadcastsInDim ⟨2, ![a, b]⟩ ![0, 1])
    (v : (⟨2, ![1, b]⟩ : Shape).Idx → α) (P : Fin a) (q : Fin b) :
    broadcastInDim ⟨2, ![a, b]⟩ ![0, 1] h v (ix2 P q) = v (ix2 (0 : Fin 1) q) :=
  broadcastInDim_apply _ h v (ix2 P q) (ix2 (0 : Fin 1) q) (fun ax => match ax with
    | ⟨0, _⟩ => by show 0 = if (1 : ℕ) = 1 then 0 else P.val; rw [if_pos rfl]
    | ⟨1, _⟩ => by show q.val = if b = 1 then 0 else q.val; rw [if_neg hb])

end Cert.Lib.RowInDim
-- ==== Proof.BlockLaws.lean ====
/-
  One row block of a node-by-feature array, read entry by entry, at the ideal values.

  The node axis (100000 rows) is cut into 25 blocks of 4000 rows. Two facts are proved here over literal shapes, free of
  any program:

  * a block of 4000 rows times a 128 × 128 weight matrix, accumulated into zeros, is the same 4000 rows of the whole
    product: each entry is the sum over the 128 contracted coordinates of a row entry times a weight entry, and a row
    of the block IS a row of the whole array;
  * the layer's epilogue `max (agg + d · h + b, 0)` of a block — `d` a column spread along the rows, `b` a row spread
    down the columns — is the same expression of the whole arrays at the block's rows.
-/
import Idealize.ShloMosaic.Lib.ValueIdx
import Idealize.ShloMosaic.Lib.ValueLayout
import Idealize.ShloMosaic.Lib.Pipeline.Value
import proofs.«136952_j80934363726533_2_alg».proof.Proof.LibContractPlain
import proofs.«136952_j80934363726533_2_alg».proof.Proof.LibKeepdims
import proofs.«136952_j80934363726533_2_alg».proof.Proof.LibColumnInDim
import proofs.«136952_j80934363726533_2_alg».proof.Proof.LibRowInDim
import proofs.«136952_j80934363726533_2_alg».proof.Proof.LibReshapeColumn

noncomputable section

namespace Cert.BlockLaws

open Idealize.ShloMosaic Idealize.ShloMosaic.ValueIdx Cert.Lib.ReshapeColumn

abbrev SNF : Shape := ⟨2, ![100000, 128]⟩
abbrev SBF : Shape := ⟨2, ![4000, 128]⟩
abbrev SFF : Shape := ⟨2, ![128, 128]⟩
abbrev SN1 : Shape := ⟨2, ![100000, 1]⟩
abbrev SB1 : Shape := ⟨2, ![4000, 1]⟩
abbrev S1F : Shape := ⟨2, ![1, 128]⟩
abbrev S0 : Shape := ⟨0, ![]⟩

/-- The origin of a rank-2 shape, as the printed offset list and as a function. -/
theorem zero2 : (![0, 0] : Fin 2 → Nat) = fun _ => 0 := funext fun a => by fin_cases a <;> rfl

/-- The whole product of the node features by a weight matrix. -/
def prod (x : FVec Ideal SNF .f32) (w : FVec Ideal SFF .f32) : FVec Ideal SNF .f32 :=
  Host.dotGeneral (DotDims.plain 100000 128 128) none x w

/-- Block `T`'s product is rows `4000·T …` of the whole product: entry `(a, b)` of the block's product and entry
    `(4000·T + a, b)` of the whole are the same sum over the contracted coordinate. -/
theorem prod_block {φ₃ φ₄ : FTy} (D : DotDims SBF SFF SBF) (hD : D = DotDims.plain 4000 128 128)
    (prec : Option ContractPrecision)
    (x : FVec Ideal SNF .f32) (w : FVec Ideal SFF .f32) (x0 : FVec Ideal SBF φ₃) (x1 : FVec Ideal SFF φ₄) (T : ℕ)
    (h0 : ∀ (y : SBF.Idx) (i : SNF.Idx), (i 0).val = T * 4000 + (y 0).val → (i 1).val = (y 1).val → (x0 y : EReal) = x i)
    (h1 : ∀ k : SFF.Idx, (x1 k : EReal) = w k)
    (y : SBF.Idx) (i : SNF.Idx) (hi0 : (i 0).val = T * 4000 + (y 0).val) (hi1 : (i 1).val = (y 1).val) :
    matmul D prec x0 x1 (constant (F := Ideal) SBF .f32 0x00000000#32) y = prod x w i := by
  obtain ⟨a, b, rfl⟩ := exists_ix2 y
  obtain ⟨A, B, rfl⟩ := exists_ix2 i
  have hB : B = b := Fin.ext hi1
  subst hB
  unfold prod
  rw [Cert.Lib.ContractPlain.matmulZero_apply D hD, Cert.Lib.ContractPlain.hostDot_apply _ rfl]
  refine Finset.sum_congr rfl fun k _ => ?_
  rw [h0 (ix2 a k) (ix2 A k) hi0 rfl, h1 (ix2 k B)]

/-- The layer's epilogue on whole arrays, as host operations: `max (agg + spread d · h + spread b, 0)`. -/
def epi (hc : SN1.BroadcastsInDim SNF ![0, 1]) (hr : S1F.BroadcastsInDim SNF ![0, 1]) (hz : S0.BroadcastsInDim SNF ![])
    (agg h : FVec Ideal SNF .f32) (d : FVec Ideal SN1 .f32) (b : FVec Ideal S1F .f32) : FVec Ideal SNF .f32 :=
  maximumf (addf (addf agg (mulf (broadcastInDim SNF ![0, 1] hc d) h)) (broadcastInDim SNF ![0, 1] hr b))
    (broadcastInDim SNF ![] hz (constant (F := Ideal) S0 .f32 0x00000000#32))

/-- The epilogue at entry `(P, q)`. -/
theorem epi_apply (hc : SN1.BroadcastsInDim SNF ![0, 1]) (hr : S1F.BroadcastsInDim SNF ![0, 1]) (hz : S0.BroadcastsInDim SNF ![])
    (agg h : FVec Ideal SNF .f32) (d : FVec Ideal SN1 .f32) (b : FVec Ideal S1F .f32) (P : Fin 100000) (q : Fin 128) :
    epi hc hr hz agg h d b (ix2 P q)
      = max (agg (ix2 P q) + d (ix2 P (0 : Fin 1)) * h (ix2 P q) + b (ix2 (0 : Fin 1) q)) (Ideal.ofBits .f32 0x00000000#32) := by
  unfold epi
  rw [maximumf_apply, addf_apply, addf_apply, mulf_apply,
    Cert.Lib.ColumnInDim.spread_apply (by decide), Cert.Lib.RowInDim.repeat_apply (by decide)]
  rfl

end Cert.BlockLaws

end
-- ==== Proof.RegionMM0.lean ====
/-
  The first dense product, region by blocks: what the two output arrays of the first matmul call hold after the run.

  The call's grid has 25 points; point `t` reads rows `4000·t …` of the node features and the whole weight matrix, and
  writes rows `4000·t …` of both outputs (an f32 copy and a copy in the short float format, which at the ideal values
  is the same number). A block's product is the same rows of the whole product, and the 25 row blocks cover the array,
  so both output arrays end holding the whole product of the arrays the region found.
-/
import proofs.«136952_j80934363726533_2_alg».proof.Proof.Gen.KernelIdeal.Frame
import proofs.«136952_j80934363726533_2_alg».proof.Proof.BlockLaws

set_option maxRecDepth 16384

noncomputable section

namespace Cert.KernelIdeal.RegionValue

open Cert.KernelIdeal Cert.KernelIdeal.Gen Cert.BlockLaws
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The printed index maps of the first call, decided over its 25 points: the row-blocked windows sit at block row `t`,
    the weight window at the origin. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's product of the two loaded blocks, entry by entry, is the whole product at the block's rows. -/
theorem pay0 (c : Dev nD) (t : Fin cfg0.N) (y : SBF.Idx) (i : SNF.Idx)
    (hi0 : (i 0).val = t.val * 4000 + (y 0).val) (hi1 : (i 1).val = (y 1).val) :
    k0_pay1 (iblk0 V c 0 t) (iblk0 V c 1 t) y = prod (V c main_arg0) (V c main_arg2) i := by
  obtain ⟨e00, e01, e10, e11, -⟩ := idx0 t
  refine prod_block dot_S4000x128_S128x128_S4000x128_1_0_0_1_n_n rfl none (V c main_arg0) (V c main_arg2)
    (truncf .bf16 (iblk0 V c 0 t) bitsLt_bf16_f32) (truncf .bf16 (iblk0 V c 1 t) bitsLt_bf16_f32) t.val ?_ ?_ y i hi0 hi1
  · intro y' i' h0 h1
    show V c main_arg0 (((cfg0.win 0).blk t).view.emb y') = V c main_arg0 i'
    refine congrArg _ ?_
    funext a; apply Fin.ext
    match a with
    | ⟨0, _⟩ => show win0_0.index t (0 : Fin 2) * 4000 + 1 * (y' 0).val = (i' 0).val; omega
    | ⟨1, _⟩ => show win0_0.index t (1 : Fin 2) * 128 + 1 * (y' 1).val = (i' 1).val; omega
  · intro k
    show V c main_arg2 (((cfg0.win 1).blk t).view.emb k) = V c main_arg2 k
    refine congrArg _ ?_
    funext a; apply Fin.ext
    match a with
    | ⟨0, _⟩ => show win0_1.index t (0 : Fin 2) * 128 + 1 * (k 0).val = (k 0).val; omega
    | ⟨1, _⟩ => show win0_1.index t (1 : Fin 2) * 128 + 1 * (k 1).val = (k 1).val; omega

/-- What point `t` writes back to the f32 output is block `t` of the whole product. -/
theorem flushed0_2 (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zero2]
  simp only [View.ld_unit_zero (S := S4000x128) zero2, View.ld_unit_zero (S := S128x128) zero2]
  obtain ⟨-, -, -, -, e20, e21, -⟩ := idx0 t
  funext j
  refine pay0 V c t j _ ?_ ?_
  · show win0_2.index t (0 : Fin 2) * 4000 + 1 * (j 0).val = t.val * 4000 + (j 0).val; omega
  · show win0_2.index t (1 : Fin 2) * 128 + 1 * (j 1).val = (j 1).val; omega

/-- The same for the second output: the short float format changes nothing at the ideal values. -/
theorem flushed0_3 (c : Dev nD) (t : Fin cfg0.N) :
    (dat0 V c).flushed 3 t = ((cfg0.win 3).blk t).view.read (Elt Ideal) (prod (V c main_arg0) (V c main_arg2)) := by
  show (cfg0.win 3).cut (grid0.coords t) ((dat0 V c).after 3 t) = _
  rw [after0_3]
  unfold out0_3
  rw [View.canon_unit_zero zero2]
  simp only [View.ld_unit_zero (S := S4000x128) zero2, View.ld_unit_zero (S := S128x128) zero2]
  obtain ⟨-, -, -, -, -, -, e30, e31⟩ := idx0 t
  funext j
  refine pay0 V c t j _ ?_ ?_
  · show win0_3.index t (0 : Fin 2) * 4000 + 1 * (j 0).val = t.val * 4000 + (j 0).val; omega
  · show win0_3.index t (1 : Fin 2) * 128 + 1 * (j 1).val = (j 1).val; omega

/-- An index of the array is in point `t`'s block iff each coordinate is in the block's range on its axis. -/
theorem mem_blk0_2 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v32_0).slice (win0_2.rect t)).set ↔ _
  rw [View.set_slice_whole, Rect.mem_set_unit]
  exact Iff.rfl
theorem mem_blk0_3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v32_1).slice (win0_3.rect t)).set ↔ _
  rw [View.set_slice_whole, Rect.mem_set_unit]
  exact Iff.rfl

/-- Row `r` lies in the block of point `r / 4000`. -/
def pointOf0 (i : S100000x128.Idx) : Fin cfg0.N := ⟨(i 0).val / 4000, by
  have h : (i 0).val < 100000 := (i 0).isLt
  rw [show cfg0.N = 25 from N_0]; omega⟩

theorem cover0_2a (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  obtain ⟨-, -, -, -, e20, e21, -⟩ := idx0 (pointOf0 i)
  have ht : (pointOf0 i).val = (i 0).val / 4000 := rfl
  refine ⟨pointOf0 i, flush0_2 _, ?_⟩
  rw [mem_blk0_2]
  intro a
  match a with
  | ⟨0, _⟩ => show win0_2.index (pointOf0 i) (0 : Fin 2) * 4000 ≤ (i 0).val ∧ (i 0).val < win0_2.index (pointOf0 i) (0 : Fin 2) * 4000 + 4000; omega
  | ⟨1, _⟩ => show win0_2.index (pointOf0 i) (1 : Fin 2) * 128 ≤ (i 1).val ∧ (i 1).val < win0_2.index (pointOf0 i) (1 : Fin 2) * 128 + 128; omega

theorem cover0_3a (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  obtain ⟨-, -, -, -, -, -, e30, e31⟩ := idx0 (pointOf0 i)
  have ht : (pointOf0 i).val = (i 0).val / 4000 := rfl
  refine ⟨pointOf0 i, flush0_3 _, ?_⟩
  rw [mem_blk0_3]
  intro a
  match a with
  | ⟨0, _⟩ => show win0_3.index (pointOf0 i) (0 : Fin 2) * 4000 ≤ (i 0).val ∧ (i 0).val < win0_3.index (pointOf0 i) (0 : Fin 2) * 4000 + 4000; omega
  | ⟨1, _⟩ => show win0_3.index (pointOf0 i) (1 : Fin 2) * 128 ≤ (i 1).val ∧ (i 1).val < win0_3.index (pointOf0 i) (1 : Fin 2) * 128 + 128; omega

/-- THE ARRAYS after the first call: both outputs hold the whole product of what the region found. -/
theorem final0_2 (c : Dev nD) : (dat0 V c).arrAt 2 cfg0.N = prod (V c main_arg0) (V c main_arg2) :=
  (dat0 V c).arrAt_eq_of_cover 2 _ (fun t _ => flushed0_2 V c t) cover0_2a
theorem final0_3 (c : Dev nD) : (dat0 V c).arrAt 3 cfg0.N = prod (V c main_arg0) (V c main_arg2) :=
  (dat0 V c).arrAt_eq_of_cover 3 _ (fun t _ => flushed0_3 V c t) cover0_3a

end Cert.KernelIdeal.RegionValue

end
-- ==== Proof.StageLaws.lean ====
/-
  The reference's stages against the forms the kernel's program computes them in.

  * The kernel multiplies the gathered rows by the spread edge weights, `h[src e] · norm[e]`, and gathers from the copy
    of the dense product in the short float format; the reference multiplies `norm[e] · h[src e]`. Multiplication of
    extended reals commutes and the change of format is the identity, so the message arrays are equal.
  * The whole-array epilogue and the whole product used for the kernel's blocks are the reference's own stages
    `close` and `mm`, written over the library's shapes.
-/
import proofs.«136952_j80934363726533_2_alg».proof.Proof.RefStages
import proofs.«136952_j80934363726533_2_alg».proof.Proof.BlockLaws

noncomputable section

namespace Cert.ReferenceIdeal.Stages

open Cert.ReferenceIdeal Cert.ReferenceIdeal.Gen Idealize.ShloMosaic Idealize.ShloMosaic.TcCoe Idealize.SL.Sem

/-- The messages as the kernel's program computes them: the gathered rows, read from the short-format copy, times the
    spread edge weights. -/
def msgsK (h : NF) (nc : ECol) (e : Edges) : FVec Ideal S1600000x128 .f32 :=
  mulf (extf .f32 (Host.gather gather_S100000x128_S1600000x1_S1600000x128_1_0_n_n_0_1_1128 h (icol (wrap (srcv e)))
      : FVec Ideal S1600000x128 .bf16) (by decide : FTy.bf16.bits < FTy.f32.bits))
    (broadcastInDim S1600000x128 ![0, 1] bcast_S1600000x1_S1600000x128_0_1 nc)

/-- The two orders of the product give one array. -/
theorem msgs_comm (h : NF) (nc : ECol) (e : Edges) : msgsK h nc e = msgs h nc e := by
  funext i
  show (_ : EReal) * _ = _ * _
  exact mul_comm _ _

/-- The epilogue over the library's shapes is the reference's `close`. -/
theorem close_eq_epi (a h : NF) (dc : NCol) (br : FVec Ideal S1x128 .f32) :
    Cert.BlockLaws.epi bcast_S100000x1_S100000x128_0_1 bcast_S1x128_S100000x128_0_1 bcast_S_S100000x128 a h dc br
      = close a h dc br := rfl

/-- The whole product over the library's dimension record is the reference's `mm`. -/
theorem mm_eq_prod (x : NF) (w : FVec Ideal S128x128 .f32) : Cert.BlockLaws.prod x w = mm x w := rfl

end Cert.ReferenceIdeal.Stages

end
-- ==== Proof.LibReshapeRow.lean ====
/-
  A vector laid out as a row, two ways.

  A reshape of a vector `[b]` to the row `[1, b]` and a `broadcast_in_dim` of the same vector along axis 1 into `[1, b]`
  are one array: both read, at `(0, q)`, the vector at `q`. This is `v.reshape(1, b)` against `v[None, :]`.
  (`b ≠ 1`, as for the row form of the broadcast.)
-/
import Idealize.ShloMosaic.Lib.ValueLayout
import proofs.«136952_j80934363726533_2_alg».proof.Proof.LibRowInDim
import proofs.«136952_j80934363726533_2_alg».proof.Proof.LibReshapeColumn

namespace Cert.Lib.ReshapeRow

open Idealize.ShloMosaic Idealize.ShloMosaic.ValueIdx

variable {α : Type}

/-- The reshape `[b] → [1, b]` is the broadcast of the vector along axis 1 into `[1, b]`. -/
theorem shapeCast_eq_inDim {b : ℕ} (hb : b ≠ 1) (v : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ v h = broadcastInDim ⟨2, ![1, b]⟩ ![1] h' v := by
  funext i
  obtain ⟨u, q, rfl⟩ := Cert.Lib.ReshapeColumn.exists_ix2 i
  rw [shapeCast_a_1a_apply, Cert.Lib.RowInDim.row_apply hb]

end Cert.Lib.ReshapeRow
-- ==== Proof.Chain4.lean ====
/-
  The idealized kernel's buffers after its first matmul call and after the host operations that follow it.

  The call leaves both of its output arrays at the whole product of the node features by the first weight matrix
  (the block-by-block computation read back); everything else is as the call found it. The host then gathers the rows
  `h[src e]` from the short-format copy, multiplies them by the edge weights and scatter-adds them into their destination
  rows: the reference's aggregated messages, the product taken in the other order; and it lays the bias out as a row
  by a reshape where the reference spreads it along a new axis.
-/
import proofs.«136952_j80934363726533_2_alg».proof.Proof.Chain3
import proofs.«136952_j80934363726533_2_alg».proof.Proof.RegionMM0
import proofs.«136952_j80934363726533_2_alg».proof.Proof.StageLaws
import proofs.«136952_j80934363726533_2_alg».proof.Proof.LibReshapeRow

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first matmul call -/

theorem at4_v32_0 : W4 m ρ c (Proc.devRef .tc main_v32_0) = H1 m c := by
  refine (W4_arr m ρ c 2).trans ?_
  rw [Cert.KernelIdeal.RegionValue.final0_2]
  show Cert.BlockLaws.prod (W3 m ρ c (Proc.devRef .tc main_arg0)) (W3 m ρ c (Proc.devRef .tc main_arg2)) = _
  rw [at3_arg0, at3_arg2]
  rfl

theorem at4_v32_1 : W4 m ρ c (Proc.devRef .tc main_v32_1) = H1 m c := by
  refine (W4_arr m ρ c 3).trans ?_
  rw [Cert.KernelIdeal.RegionValue.final0_3]
  show Cert.BlockLaws.prod (W3 m ρ c (Proc.devRef .tc main_arg0)) (W3 m ρ c (Proc.devRef .tc main_arg2)) = _
  rw [at3_arg0, at3_arg2]
  rfl

theorem at4_v1 : W4 m ρ c (Proc.devRef .tc main_v1) = Cert.ReferenceIdeal.Stages.srcv (edges m c) :=
  (W4_of_ne m ρ c main_v1 (by decide)).trans (at3_v1 m ρ c)
theorem at4_v3 : W4 m ρ c (Proc.devRef .tc main_v3) = Cert.ReferenceIdeal.Stages.dstv (edges m c) :=
  (W4_of_ne m ρ c main_v3 (by decide)).trans (at3_v3 m ρ c)
theorem at4_v15 : W4 m ρ c (Proc.devRef .tc main_v15) = Cert.ReferenceIdeal.Stages.dinv2col (edges m c) :=
  (W4_of_ne m ρ c main_v15 (by decide)).trans (at3_v15 m ρ c)
theorem at4_v31 : W4 m ρ c (Proc.devRef .tc main_v31) = Cert.ReferenceIdeal.Stages.normcol (edges m c) :=
  (W4_of_ne m ρ c main_v31 (by decide)).trans (at3_v31 m ρ c)
theorem at4_arg3 : W4 m ρ c (Proc.devRef .tc main_arg3) = m ((c : Thread nD τ).loc main_arg3) :=
  (W4_of_ne m ρ c main_arg3 (by decide)).trans (at3_arg3 m ρ c)
theorem at4_arg4 : W4 m ρ c (Proc.devRef .tc main_arg4) = m ((c : Thread nD τ).loc main_arg4) :=
  (W4_of_ne m ρ c main_arg4 (by decide)).trans (at3_arg4 m ρ c)
theorem at4_arg5 : W4 m ρ c (Proc.devRef .tc main_arg5) = m ((c : Thread nD τ).loc main_arg5) :=
  (W4_of_ne m ρ c main_arg5 (by decide)).trans (at3_arg5 m ρ c)
theorem at4_arg6 : W4 m ρ c (Proc.devRef .tc main_arg6) = m ((c : Thread nD τ).loc main_arg6) :=
  (W4_of_ne m ρ c main_arg6 (by decide)).trans (at3_arg6 m ρ c)
theorem at4_arg7 : W4 m ρ c (Proc.devRef .tc main_arg7) = m ((c : Thread nD τ).loc main_arg7) :=
  (W4_of_ne m ρ c main_arg7 (by decide)).trans (at3_arg7 m ρ c)

/-! ## After the host operations between the first matmul call and the first epilogue call -/

/-- The aggregated messages of the first layer. -/
theorem at5_v45 : W5 m ρ c (Proc.devRef .tc main_v45)
    = Cert.ReferenceIdeal.Stages.agg (Cert.ReferenceIdeal.Stages.msgs (H1 m c) (Cert.ReferenceIdeal.Stages.normcol (edges m c)) (edges m c)) (edges m c) := by
  show StableHlo.after hostOps1 (W4 m ρ c) (Proc.devRef .tc main_v45) = _
  after_results_simp
  rw [at4_v1, at4_v3, at4_v31, at4_v32_1]
  exact Eq.trans (b := Cert.ReferenceIdeal.Stages.agg (Cert.ReferenceIdeal.Stages.msgsK (H1 m c) (Cert.ReferenceIdeal.Stages.normcol (edges m c)) (edges m c)) (edges m c)) rfl
    (congrArg (fun u => Cert.ReferenceIdeal.Stages.agg u (edges m c)) (Cert.ReferenceIdeal.Stages.msgs_comm _ _ _))

/-- The first bias as a row. -/
theorem at5_v46 : W5 m ρ c (Proc.devRef .tc main_v46) = Cert.ReferenceIdeal.Stages.brow (m ((c : Thread nD τ).loc main_arg3)) := by
  show StableHlo.after hostOps1 (W4 m ρ c) (Proc.devRef .tc main_v46) = _
  after_results_simp
  rw [at4_arg3]
  exact (Cert.Lib.ReshapeRow.shapeCast_eq_inDim (b := 128) (by omega) _ _ _).trans rfl

theorem at5_v32_0 : W5 m ρ c (Proc.devRef .tc main_v32_0) = H1 m c := by
  show StableHlo.after hostOps1 (W4 m ρ c) (Proc.devRef .tc main_v32_0) = _
  after_results_simp
  exact at4_v32_0 m ρ c
theorem at5_v1 : W5 m ρ c (Proc.devRef .tc main_v1) = Cert.ReferenceIdeal.Stages.srcv (edges m c) := by
  show StableHlo.after hostOps1 (W4 m ρ c) (Proc.devRef .tc main_v1) = _
  after_results_simp
  exact at4_v1 m ρ c
theorem at5_v3 : W5 m ρ c (Proc.devRef .tc main_v3) = Cert.ReferenceIdeal.Stages.dstv (edges m c) := by
  show StableHlo.after hostOps1 (W4 m ρ c) (Proc.devRef .tc main_v3) = _
  after_results_simp
  exact at4_v3 m ρ c
theorem at5_v15 : W5 m ρ c (Proc.devRef .tc main_v15) = Cert.ReferenceIdeal.Stages.dinv2col (edges m c) := by
  show StableHlo.after hostOps1 (W4 m ρ c) (Proc.devRef .tc main_v15) = _
  after_results_simp
  exact at4_v15 m ρ c
theorem at5_v31 : W5 m ρ c (Proc.devRef .tc main_v31) = Cert.ReferenceIdeal.Stages.normcol (edges m c) := by
  show StableHlo.after hostOps1 (W4 m ρ c) (Proc.devRef .tc main_v31) = _
  after_results_simp
  exact at4_v31 m ρ c
theorem at5_arg4 : W5 m ρ c (Proc.devRef .tc main_arg4) = m ((c : Thread nD τ).loc main_arg4) := by
  show StableHlo.after hostOps1 (W4 m ρ c) (Proc.devRef .tc main_arg4) = _
  after_results_simp
  exact at4_arg4 m ρ c
theorem at5_arg5 : W5 m ρ c (Proc.devRef .tc main_arg5) = m ((c : Thread nD τ).loc main_arg5) := by
  show StableHlo.after hostOps1 (W4 m ρ c) (Proc.devRef .tc main_arg5) = _
  after_results_simp
  exact at4_arg5 m ρ c
theorem at5_arg6 : W5 m ρ c (Proc.devRef .tc main_arg6) = m ((c : Thread nD τ).loc main_arg6) := by
  show StableHlo.after hostOps1 (W4 m ρ c) (Proc.devRef .tc main_arg6) = _
  after_results_simp
  exact at4_arg6 m ρ c
theorem at5_arg7 : W5 m ρ c (Proc.devRef .tc main_arg7) = m ((c : Thread nD τ).loc main_arg7) := by
  show StableHlo.after hostOps1 (W4 m ρ c) (Proc.devRef .tc main_arg7) = _
  after_results_simp
  exact at4_arg7 m ρ c

end Cert.KernelIdeal.Chain

end
-- ==== Proof.BlockEpi.lean ====
/-
  The layer's epilogue on one row block, at the ideal values.

  The kernel body computes, on a block of 4000 rows, `max (agg + spread d · h + spread b, 0)` with `d` a 4000 × 1 column
  spread along the rows and `b` a 1 × 128 row spread down the columns, then changes the float format (the identity at the
  ideal values). When the four loaded blocks are rows `4000·T …` of whole arrays, each entry of the result is the whole
  arrays' epilogue at the same row.
-/
import proofs.«136952_j80934363726533_2_alg».proof.Proof.BlockLaws

noncomputable section

namespace Cert.BlockLaws

open Idealize.ShloMosaic Idealize.ShloMosaic.ValueIdx Cert.Lib.ReshapeColumn

/-- The body's epilogue of a row block, entry `(p, q)`, is the whole arrays' epilogue at `(4000·T + p, q)`. -/
theorem epi_block (hs : SBF.ShapeCasts SBF) (hs1 : SB1.ShapeCasts SB1) (hsr : S1F.ShapeCasts S1F)
    (hb1 : SB1.Broadcasts SBF) (hbr : S1F.Broadcasts SBF) (hbits : FTy.bf16.bits < FTy.f32.bits)
    (hc : SN1.BroadcastsInDim SNF ![0, 1]) (hr : S1F.BroadcastsInDim SNF ![0, 1]) (hz : S0.BroadcastsInDim SNF ![])
    (agg h : FVec Ideal SNF .f32) (d : FVec Ideal SN1 .f32) (b : FVec Ideal S1F .f32)
    (v0 v2 : FVec Ideal SBF .f32) (v4 : FVec Ideal SB1 .f32) (v6 : FVec Ideal S1F .f32) (T : ℕ)
    (h0 : ∀ (y : SBF.Idx) (i : SNF.Idx), (i 0).val = T * 4000 + (y 0).val → (i 1).val = (y 1).val → v0 y = agg i)
    (h2 : ∀ (y : SBF.Idx) (i : SNF.Idx), (i 0).val = T * 4000 + (y 0).val → (i 1).val = (y 1).val → v2 y = h i)
    (h4 : ∀ (y : SB1.Idx) (i : SN1.Idx), (i 0).val = T * 4000 + (y 0).val → v4 y = d i)
    (h6 : ∀ k : S1F.Idx, v6 k = b k)
    (y : SBF.Idx) (i : SNF.Idx) (hi0 : (i 0).val = T * 4000 + (y 0).val) (hi1 : (i 1).val = (y 1).val) :
    truncf .bf16 (maximumf (addf (addf (shapeCast SBF v0 hs) (mulf (broadcastTo SBF (shapeCast SB1 v4 hs1) hb1) (shapeCast SBF v2 hs)))
        (broadcastTo SBF (shapeCast S1F v6 hsr) hbr)) (broadcast SBF (Scalar.ofBits (F := Ideal) .f32 0x00000000#32))) hbits y
      = epi hc hr hz agg h d b i := by
  obtain ⟨p, q, rfl⟩ := exists_ix2 y
  obtain ⟨A, B, rfl⟩ := exists_ix2 i
  have hB : B = q := Fin.ext hi1
  subst hB
  rw [epi_apply]
  simp only [shapeCast_self]
  show max (v0 (ix2 p B) + broadcastTo SBF v4 hb1 (ix2 p B) * v2 (ix2 p B) + broadcastTo SBF v6 hbr (ix2 p B))
      (Scalar.ofBits (F := Ideal) .f32 0x00000000#32) = _
  rw [Cert.Keepdims.broadcastTo_a1_ab_apply, broadcastTo_1b_ab_apply, h0 (ix2 p B) (ix2 A B) hi0 rfl,
    h2 (ix2 p B) (ix2 A B) hi0 rfl, h4 (ix2 p (0 : Fin 1)) (ix2 A (0 : Fin 1)) hi0, h6]
  rfl

end Cert.BlockLaws

end
-- ==== Proof.RegionEpi1.lean ====
/-
  The first layer's epilogue, region by blocks: what the output array of the first epilogue call holds after the run.

  The call's grid has 25 points; point `t` reads rows `4000·t …` of the aggregated messages, of the dense product and of
  the `dinv²` column, and the whole bias row, and writes rows `4000·t …` of the output. A block's epilogue is the same rows
  of the whole arrays' epilogue, and the 25 row blocks cover the array, so the output array ends holding
  `max (agg + dinv² · h + b, 0)` of the arrays the region found.
-/
import proofs.«136952_j80934363726533_2_alg».proof.Proof.Gen.KernelIdeal.Frame
import proofs.«136952_j80934363726533_2_alg».proof.Proof.BlockEpi

set_option maxRecDepth 16384

noncomputable section

namespace Cert.KernelIdeal.RegionValue

open Cert.KernelIdeal Cert.KernelIdeal.Gen Cert.BlockLaws
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))
variable (hc : SN1.BroadcastsInDim SNF ![0, 1]) (hr : S1F.BroadcastsInDim SNF ![0, 1]) (hz : S0.BroadcastsInDim SNF ![])

/-- The printed index maps of the first epilogue call, decided over its 25 points: the row-blocked windows sit at block
    row `t`, the bias window at the origin. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's epilogue of the four loaded blocks, entry by entry, is the whole arrays' epilogue at the block's rows. -/
theorem pay1 (c : Dev nD) (t : Fin cfg1.N) (y : SBF.Idx) (i : SNF.Idx)
    (hi0 : (i 0).val = t.val * 4000 + (y 0).val) (hi1 : (i 1).val = (y 1).val) :
    k1_pay1 (iblk1 V c 0 t) (iblk1 V c 1 t) (iblk1 V c 2 t) (iblk1 V c 3 t) y
      = epi hc hr hz (V c main_v45) (V c main_v32_0) (V c main_v15) (V c main_v46) i := by
  obtain ⟨e00, e01, e10, e11, e20, e21, e30, e31, -⟩ := idx1 t
  refine epi_block shapeCasts_S4000x128_S4000x128 shapeCasts_S4000x1_S4000x1 shapeCasts_S1x128_S1x128
    broadcasts_S4000x1_S4000x128 broadcasts_S1x128_S4000x128 bitsLt_bf16_f32 hc hr hz
    (V c main_v45) (V c main_v32_0) (V c main_v15) (V c main_v46)
    (iblk1 V c 0 t) (iblk1 V c 1 t) (iblk1 V c 2 t) (iblk1 V c 3 t) t.val ?_ ?_ ?_ ?_ y i hi0 hi1
  · intro y' i' h0 h1
    show V c main_v45 (((cfg1.win 0).blk t).view.emb y') = V c main_v45 i'
    refine congrArg _ ?_
    funext a; apply Fin.ext
    match a with
    | ⟨0, _⟩ => show win1_0.index t (0 : Fin 2) * 4000 + 1 * (y' 0).val = (i' 0).val; omega
    | ⟨1, _⟩ => show win1_0.index t (1 : Fin 2) * 128 + 1 * (y' 1).val = (i' 1).val; omega
  · intro y' i' h0 h1
    show V c main_v32_0 (((cfg1.win 1).blk t).view.emb y') = V c main_v32_0 i'
    refine congrArg _ ?_
    funext a; apply Fin.ext
    match a with
    | ⟨0, _⟩ => show win1_1.index t (0 : Fin 2) * 4000 + 1 * (y' 0).val = (i' 0).val; omega
    | ⟨1, _⟩ => show win1_1.index t (1 : Fin 2) * 128 + 1 * (y' 1).val = (i' 1).val; omega
  · intro y' i' h0
    show V c main_v15 (((cfg1.win 2).blk t).view.emb y') = V c main_v15 i'
    refine congrArg _ ?_
    funext a; apply Fin.ext
    match a with
    | ⟨0, _⟩ => show win1_2.index t (0 : Fin 2) * 4000 + 1 * (y' 0).val = (i' 0).val; omega
    | ⟨1, _⟩ =>
      show win1_2.index t (1 : Fin 2) * 1 + 1 * (y' 1).val = (i' 1).val
      have hy : (y' 1).val < 1 := (y' 1).isLt
      have hi : (i' 1).val < 1 := (i' 1).isLt
      omega
  · intro k
    show V c main_v46 (((cfg1.win 3).blk t).view.emb k) = V c main_v46 k
    refine congrArg _ ?_
    funext a; apply Fin.ext
    match a with
    | ⟨0, _⟩ => show win1_3.index t (0 : Fin 2) * 1 + 1 * (k 0).val = (k 0).val; omega
    | ⟨1, _⟩ => show win1_3.index t (1 : Fin 2) * 128 + 1 * (k 1).val = (k 1).val; omega

/-- What point `t` writes back is block `t` of the whole arrays' epilogue. -/
theorem flushed1_4 (c : Dev nD) (t : Fin cfg1.N) :
    (dat1 V c).flushed 4 t = ((cfg1.win 4).blk t).view.read (Elt Ideal)
      (epi hc hr hz (V c main_v45) (V c main_v32_0) (V c main_v15) (V c main_v46)) := by
  show (cfg1.win 4).cut (grid1.coords t) ((dat1 V c).after 4 t) = _
  rw [after1_4]
  unfold out1_4
  rw [View.canon_unit_zero zero2]
  simp only [View.ld_unit_zero (S := S4000x128) zero2, View.ld_unit_zero (S := S4000x1) zero2, View.ld_unit_zero (S := S1x128) zero2]
  obtain ⟨-, -, -, -, -, -, -, -, e40, e41⟩ := idx1 t
  funext j
  refine pay1 V hc hr hz c t j _ ?_ ?_
  · show win1_4.index t (0 : Fin 2) * 4000 + 1 * (j 0).val = t.val * 4000 + (j 0).val; omega
  · show win1_4.index t (1 : Fin 2) * 128 + 1 * (j 1).val = (j 1).val; omega

/-- An index of the array is in point `t`'s block iff each coordinate is in the block's range on its axis. -/
theorem mem_blk1_4 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v47).slice (win1_4.rect t)).set ↔ _
  rw [View.set_slice_whole, Rect.mem_set_unit]
  exact Iff.rfl

/-- Row `r` lies in the block of point `r / 4000`. -/
def pointOf1 (i : S100000x128.Idx) : Fin cfg1.N := ⟨(i 0).val / 4000, by
  have h : (i 0).val < 100000 := (i 0).isLt
  rw [show cfg1.N = 25 from N_1]; omega⟩

theorem cover1_4a (i : S100000x128.Idx) :
    ∃ t : Fin cfg1.N, (cfg1.win 4).flush t = true ∧ i ∈ ((cfg1.win 4).blk t).view.set := by
  have h0 : (i 0).val < 100000 := (i 0).isLt
  have h1 : (i 1).val < 128 := (i 1).isLt
  obtain ⟨-, -, -, -, -, -, -, -, e40, e41⟩ := idx1 (pointOf1 i)
  have ht : (pointOf1 i).val = (i 0).val / 4000 := rfl
  refine ⟨pointOf1 i, flush1_4 _, ?_⟩
  rw [mem_blk1_4]
  intro a
  match a with
  | ⟨0, _⟩ => show win1_4.index (pointOf1 i) (0 : Fin 2) * 4000 ≤ (i 0).val ∧ (i 0).val < win1_4.index (pointOf1 i) (0 : Fin 2) * 4000 + 4000; omega
  | ⟨1, _⟩ => show win1_4.index (pointOf1 i) (1 : Fin 2) * 128 ≤ (i 1).val ∧ (i 1).val < win1_4.index (pointOf1 i) (1 : Fin 2) * 128 + 128; omega

/-- THE ARRAY after the first epilogue call: the whole arrays' epilogue of what the region found. -/
theorem final1_4 (c : Dev nD) :
    (dat1 V c).arrAt 4 cfg1.N = epi hc hr hz (V c main_v45) (V c main_v32_0) (V c main_v15) (V c main_v46) :=
  (dat1 V c).arrAt_eq_of_cover 4 _ (fun t _ => flushed1_4 V hc hr hz c t) cover1_4a

end Cert.KernelIdeal.RegionValue

end
-- ==== Proof.RegionMM2.lean ====
/-
  The second dense product, region by blocks: what the two output arrays of the second matmul call hold after the run.

  As for the first call: 25 points, point `t` reads rows `4000·t …` of the first layer's output (already in the short float
  format, which at the ideal values is the same number) and the whole weight matrix, and writes rows `4000·t …` of both
  outputs. Both output arrays end holding the whole product of the arrays the region found.
-/
import proofs.«136952_j80934363726533_2_alg».proof.Proof.Gen.KernelIdeal.Frame
import proofs.«136952_j80934363726533_2_alg».proof.Proof.BlockLaws

set_option maxRecDepth 16384

noncomputable section

namespace Cert.KernelIdeal.RegionValue

open Cert.KernelIdeal Cert.KernelIdeal.Gen Cert.BlockLaws
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The printed index maps of the second matmul call, decided over its 25 points: the row-blocked windows sit at block row `t`,
    the weight window at the origin. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The body's product of the two loaded blocks, entry by entry, is the whole product at the block's rows. -/
theorem pay2 (c : Dev nD) (t : Fin cfg2.N) (y : SBF.Idx) (i : SNF.Idx)
    (hi0 : (i 0).val = t.val * 4000 + (y 0).val) (hi1 : (i 1).val = (y 1).val) :
    k2_pay1 (iblk2 V c 0 t) (iblk2 V c 1 t) y = prod (V c main_v47) (V c main_arg4) i := by
  obtain ⟨e00, e01, e10, e11, -⟩ := idx2 t
  refine prod_block dot_S4000x128_S128x128_S4000x128_1_0_0_1_n_n rfl none (V c main_v47) (V c main_arg4)
    (shapeCast S4000x128 (iblk2 V c 0 t) shapeCasts_S4000x128_S4000x128) (truncf .bf16 (iblk2 V c 1 t) bitsLt_bf16_f32) t.val ?_ ?_ y i hi0 hi1
  · intro y' i' h0 h1
    refine (congrFun (shapeCast_self (s := S4000x128) (iblk2 V c 0 t) shapeCasts_S4000x128_S4000x128) y').trans ?_
    show V c main_v47 (((cfg2.win 0).blk t).view.emb y') = V c main_v47 i'
    refine congrArg _ ?_
    funext a; apply Fin.ext
    match a with
    | ⟨0, _⟩ => show win2_0.index t (0 : Fin 2) * 4000 + 1 * (y' 0).val = (i' 0).val; omega
    | ⟨1, _⟩ => show win2_0.index t (1 : Fin 2) * 128 + 1 * (y' 1).val = (i' 1).val; omega
  · intro k
    show V c main_arg4 (((cfg2.win 1).blk t).view.emb k) = V c main_arg4 k
    refine congrArg _ ?_
    funext a; apply Fin.ext
    match a with
    | ⟨0, _⟩ => show win2_1.index t (0 : Fin 2) * 128 + 1 * (k 0).val = (k 0).val; omega
    | ⟨1, _⟩ => show win2_1.index t (1 : Fin 2) * 128 + 1 * (k 1).val = (k 1).val; omega

/-- What point `t` writes back to the f32 output is block `t` of the whole product. -/
theorem flushed2_2 (c : Dev nD) (t : Fin cfg2.N) :
    (dat2 V c).flushed 2 t = ((cfg2.win 2).blk t).view.read (Elt Ideal) (prod (V c main_v47) (V c main_arg4)) := by
  show (cfg2.win 2).cut (grid2.coords t) ((dat2 V c).after 2 t) = _
  rw [after2_2]
  unfold out2_2
  rw [View.canon_unit_zero zero2]
  simp only [View.ld_unit_zero (S := S4000x128) zero2, View.ld_unit_zero (S := S128x128) zero2]
  obtain ⟨-, -, -, -, e20, e21, -⟩ := idx2 t
  funext j
  refine pay2 V c t j _ ?_ ?_
  · show win2_2.index t (0 : Fin 2) * 4000 + 1 * (j 0).val = t.val * 4000 + (j 0).val; omega
  · show win2_2.index t (1 : Fin 2) * 128 + 1 * (j 1).val = (j 1).val; omega

/-- The same for the second output: the short float format changes nothing at the ideal values. -/
theorem flushed2_3 (c : Dev nD) (t : Fin cfg2.N) :
    (dat2 V c).flushed 3 t = ((cfg2.win 3).blk t).view.read (Elt Ideal) (prod (V c main_v47) (V c main_arg4)) := by
  show (cfg2.win 3).cut (grid2.coords t) ((dat2 V c).after 3 t) = _
  rw [after2_3]
  unfold out2_3
  rw [View.canon_unit_zero zero2]
  simp only [View.ld_unit_zero (S := S4000x128) zero2, View.ld_unit_zero (S := S128x128) zero2]
  obtain ⟨-, -, -, -, -, -, e30, e31⟩ := idx2 t
  funext j
  refine pay2 V c t j _ ?_ ?_
  · show win2_3.index t (0 : Fin 2) * 4000 + 1 * (j 0).val = t.val * 4000 + (j 0).val; omega
  · show win2_3.index t (1 : Fin 2) * 128 + 1 * (j 1).val = (j 1).val; omega

/-- An index of the array is in point `t`'s block iff each coordinate is in the block's range on its axis. -/
theorem mem_blk2_2 (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v48_0).slice (win2_2.rect t)).set ↔ _
  rw [View.set_slice_whole, Rect.mem_set_unit]
  exact Iff.rfl
theorem mem_blk2_3 (t : Fin cfg2.N) (i : S100000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v48_1).slice (win2_3.rect t)).set ↔ _
  rw [View.set_slice_whole, Rect.mem_set_unit]
  exact Iff.rfl

/-- Row `r` lies in the block of point `r / 4000`. -/
def pointOf2 (i : S100000x128.Idx) : Fin cfg2.N := ⟨(i 0).val / 4000, by
  have h : (i 0).val < 100000 := (i 0).isLt
  rw [show cfg2.N = 25 from N_2]; omega⟩

theorem cover2_2a (i : S100000x128.Idx) :
    ∃ t : Fin cfg2.N, (cfg2.win 2).flush t = true ∧ i ∈ ((cfg2.win 2).blk t).view.set := by
  have h0 : (i 0).val < 100000 := (i 0).isLt
  have h1 : (i 1).val < 128 := (i 1).isLt
  obtain ⟨-, -, -, -, e20, e21, -⟩ := idx2 (pointOf2 i)
  have ht : (pointOf2 i).val = (i 0).val / 4000 := rfl
  refine ⟨pointOf2 i, flush2_2 _, ?_⟩
  rw [mem_blk2_2]
  intro a
  match a with
  | ⟨0, _⟩ => show win2_2.index (pointOf2 i) (0 : Fin 2) * 4000 ≤ (i 0).val ∧ (i 0).val < win2_2.index (pointOf2 i) (0 : Fin 2) * 4000 + 4000; omega
  | ⟨1, _⟩ => show win2_2.index (pointOf2 i) (1 : Fin 2) * 128 ≤ (i 1).val ∧ (i 1).val < win2_2.index (pointOf2 i) (1 : Fin 2) * 128 + 128; omega

theorem cover2_3a (i : S100000x128.Idx) :
    ∃ t : Fin cfg2.N, (cfg2.win 3).flush t = true ∧ i ∈ ((cfg2.win 3).blk t).view.set := by
  have h0 : (i 0).val < 100000 := (i 0).isLt
  have h1 : (i 1).val < 128 := (i 1).isLt
  obtain ⟨-, -, -, -, -, -, e30, e31⟩ := idx2 (pointOf2 i)
  have ht : (pointOf2 i).val = (i 0).val / 4000 := rfl
  refine ⟨pointOf2 i, flush2_3 _, ?_⟩
  rw [mem_blk2_3]
  intro a
  match a with
  | ⟨0, _⟩ => show win2_3.index (pointOf2 i) (0 : Fin 2) * 4000 ≤ (i 0).val ∧ (i 0).val < win2_3.index (pointOf2 i) (0 : Fin 2) * 4000 + 4000; omega
  | ⟨1, _⟩ => show win2_3.index (pointOf2 i) (1 : Fin 2) * 128 ≤ (i 1).val ∧ (i 1).val < win2_3.index (pointOf2 i) (1 : Fin 2) * 128 + 128; omega

/-- THE ARRAYS after the second matmul call: both outputs hold the whole product of what the region found. -/
theorem final2_2 (c : Dev nD) : (dat2 V c).arrAt 2 cfg2.N = prod (V c main_v47) (V c main_arg4) :=
  (dat2 V c).arrAt_eq_of_cover 2 _ (fun t _ => flushed2_2 V c t) cover2_2a
theorem final2_3 (c : Dev nD) : (dat2 V c).arrAt 3 cfg2.N = prod (V c main_v47) (V c main_arg4) :=
  (dat2 V c).arrAt_eq_of_cover 3 _ (fun t _ => flushed2_3 V c t) cover2_3a

end Cert.KernelIdeal.RegionValue

end
-- ==== Proof.Chain6.lean ====
/-
  The idealized kernel's buffers after its first epilogue call and after its second matmul call.

  The epilogue call leaves its output array at `max (agg + dinv² · h + b, 0)` of the arrays it found — the reference's
  first layer —, and the second matmul call leaves both of its outputs at the product of that by the second weight
  matrix. Everything else is as each call found it.
-/
import proofs.«136952_j80934363726533_2_alg».proof.Proof.Chain4
import proofs.«136952_j80934363726533_2_alg».proof.Proof.RegionEpi1
import proofs.«136952_j80934363726533_2_alg».proof.Proof.RegionMM2

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first epilogue call -/

theorem at6_v47 : W6 m ρ c (Proc.devRef .tc main_v47) = X1 m c := by
  refine (W6_arr m ρ c 4).trans ?_
  rw [Cert.KernelIdeal.RegionValue.final1_4 (V5 m ρ) Cert.ReferenceIdeal.Facts₀.bcast_S100000x1_S100000x128_0_1 Cert.ReferenceIdeal.Facts₀.bcast_S1x128_S100000x128_0_1 Cert.ReferenceIdeal.Facts₀.bcast_S_S100000x128]
  show Cert.BlockLaws.epi _ _ _ (W5 m ρ c (Proc.devRef .tc main_v45)) (W5 m ρ c (Proc.devRef .tc main_v32_0))
    (W5 m ρ c (Proc.devRef .tc main_v15)) (W5 m ρ c (Proc.devRef .tc main_v46)) = _
  rw [at5_v45, at5_v32_0, at5_v15, at5_v46]
  exact Cert.ReferenceIdeal.Stages.close_eq_epi _ _ _ _

theorem at6_v1 : W6 m ρ c (Proc.devRef .tc main_v1) = Cert.ReferenceIdeal.Stages.srcv (edges m c) :=
  (W6_of_ne m ρ c main_v1 (by decide)).trans (at5_v1 m ρ c)
theorem at6_v3 : W6 m ρ c (Proc.devRef .tc main_v3) = Cert.ReferenceIdeal.Stages.dstv (edges m c) :=
  (W6_of_ne m ρ c main_v3 (by decide)).trans (at5_v3 m ρ c)
/-- The `dinv²` column is one of the call's input arrays: the call leaves it as it found it. -/
theorem at6_v15 : W6 m ρ c (Proc.devRef .tc main_v15) = Cert.ReferenceIdeal.Stages.dinv2col (edges m c) :=
  (W6_arr m ρ c 2).trans ((((dat1 (V5 m ρ) c).arrAt_in 2 rfl _).trans (A_eq1 (V5 m ρ) c 2)).trans (at5_v15 m ρ c))
theorem at6_v31 : W6 m ρ c (Proc.devRef .tc main_v31) = Cert.ReferenceIdeal.Stages.normcol (edges m c) :=
  (W6_of_ne m ρ c main_v31 (by decide)).trans (at5_v31 m ρ c)
theorem at6_arg4 : W6 m ρ c (Proc.devRef .tc main_arg4) = m ((c : Thread nD τ).loc main_arg4) :=
  (W6_of_ne m ρ c main_arg4 (by decide)).trans (at5_arg4 m ρ c)
theorem at6_arg5 : W6 m ρ c (Proc.devRef .tc main_arg5) = m ((c : Thread nD τ).loc main_arg5) :=
  (W6_of_ne m ρ c main_arg5 (by decide)).trans (at5_arg5 m ρ c)
theorem at6_arg6 : W6 m ρ c (Proc.devRef .tc main_arg6) = m ((c : Thread nD τ).loc main_arg6) :=
  (W6_of_ne m ρ c main_arg6 (by decide)).trans (at5_arg6 m ρ c)
theorem at6_arg7 : W6 m ρ c (Proc.devRef .tc main_arg7) = m ((c : Thread nD τ).loc main_arg7) :=
  (W6_of_ne m ρ c main_arg7 (by decide)).trans (at5_arg7 m ρ c)

/-! ## After the second matmul call -/

theorem at7_v48_0 : W7 m ρ c (Proc.devRef .tc main_v48_0) = H2 m c := by
  refine (W7_arr m ρ c 2).trans ?_
  rw [Cert.KernelIdeal.RegionValue.final2_2]
  show Cert.BlockLaws.prod (W6 m ρ c (Proc.devRef .tc main_v47)) (W6 m ρ c (Proc.devRef .tc main_arg4)) = _
  rw [at6_v47, at6_arg4]
  rfl

theorem at7_v48_1 : W7 m ρ c (Proc.devRef .tc main_v48_1) = H2 m c := by
  refine (W7_arr m ρ c 3).trans ?_
  rw [Cert.KernelIdeal.RegionValue.final2_3]
  show Cert.BlockLaws.prod (W6 m ρ c (Proc.devRef .tc main_v47)) (W6 m ρ c (Proc.devRef .tc main_arg4)) = _
  rw [at6_v47, at6_arg4]
  rfl

theorem at7_v1 : W7 m ρ c (Proc.devRef .tc main_v1) = Cert.ReferenceIdeal.Stages.srcv (edges m c) :=
  (W7_of_ne m ρ c main_v1 (by decide)).trans (at6_v1 m ρ c)
theorem at7_v3 : W7 m ρ c (Proc.devRef .tc main_v3) = Cert.ReferenceIdeal.Stages.dstv (edges m c) :=
  (W7_of_ne m ρ c main_v3 (by decide)).trans (at6_v3 m ρ c)
theorem at7_v15 : W7 m ρ c (Proc.devRef .tc main_v15) = Cert.ReferenceIdeal.Stages.dinv2col (edges m c) :=
  (W7_of_ne m ρ c main_v15 (by decide)).trans (at6_v15 m ρ c)
theorem at7_v31 : W7 m ρ c (Proc.devRef .tc main_v31) = Cert.ReferenceIdeal.Stages.normcol (edges m c) :=
  (W7_of_ne m ρ c main_v31 (by decide)).trans (at6_v31 m ρ c)
theorem at7_arg5 : W7 m ρ c (Proc.devRef .tc main_arg5) = m ((c : Thread nD τ).loc main_arg5) :=
  (W7_of_ne m ρ c main_arg5 (by decide)).trans (at6_arg5 m ρ c)
theorem at7_arg6 : W7 m ρ c (Proc.devRef .tc main_arg6) = m ((c : Thread nD τ).loc main_arg6) :=
  (W7_of_ne m ρ c main_arg6 (by decide)).trans (at6_arg6 m ρ c)
theorem at7_arg7 : W7 m ρ c (Proc.devRef .tc main_arg7) = m ((c : Thread nD τ).loc main_arg7) :=
  (W7_of_ne m ρ c main_arg7 (by decide)).trans (at6_arg7 m ρ c)

end Cert.KernelIdeal.Chain

end
-- ==== Proof.RegionEpi3.lean ====
/-
  The second layer's epilogue, region by blocks: what the output array of the second epilogue call holds after the run.

  As for the first layer: 25 points, point `t` reads rows `4000·t …` of the aggregated messages, of the dense product and
  of the `dinv²` column, and the whole bias row, and writes rows `4000·t …` of the output, which ends holding
  `max (agg + dinv² · h + b, 0)` of the arrays the region found.
-/
import proofs.«136952_j80934363726533_2_alg».proof.Proof.Gen.KernelIdeal.Frame
import proofs.«136952_j80934363726533_2_alg».proof.Proof.BlockEpi

set_option maxRecDepth 16384

noncomputable section

namespace Cert.KernelIdeal.RegionValue

open Cert.KernelIdeal Cert.KernelIdeal.Gen Cert.BlockLaws
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))
variable (hc : SN1.BroadcastsInDim SNF ![0, 1]) (hr : S1F.BroadcastsInDim SNF ![0, 1]) (hz : S0.BroadcastsInDim SNF ![])

/-- The printed index maps of the second epilogue call, decided over its 25 points: the row-blocked windows sit at block
    row `t`, the bias window at the origin. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's epilogue of the four loaded blocks, entry by entry, is the whole arrays' epilogue at the block's rows. -/
theorem pay3 (c : Dev nD) (t : Fin cfg3.N) (y : SBF.Idx) (i : SNF.Idx)
    (hi0 : (i 0).val = t.val * 4000 + (y 0).val) (hi1 : (i 1).val = (y 1).val) :
    k3_pay1 (iblk3 V c 0 t) (iblk3 V c 1 t) (iblk3 V c 2 t) (iblk3 V c 3 t) y
      = epi hc hr hz (V c main_v61) (V c main_v48_0) (V c main_v15) (V c main_v62) i := by
  obtain ⟨e00, e01, e10, e11, e20, e21, e30, e31, -⟩ := idx3 t
  refine epi_block shapeCasts_S4000x128_S4000x128 shapeCasts_S4000x1_S4000x1 shapeCasts_S1x128_S1x128
    broadcasts_S4000x1_S4000x128 broadcasts_S1x128_S4000x128 bitsLt_bf16_f32 hc hr hz
    (V c main_v61) (V c main_v48_0) (V c main_v15) (V c main_v62)
    (iblk3 V c 0 t) (iblk3 V c 1 t) (iblk3 V c 2 t) (iblk3 V c 3 t) t.val ?_ ?_ ?_ ?_ y i hi0 hi1
  · intro y' i' h0 h1
    show V c main_v61 (((cfg3.win 0).blk t).view.emb y') = V c main_v61 i'
    refine congrArg _ ?_
    funext a; apply Fin.ext
    match a with
    | ⟨0, _⟩ => show win3_0.index t (0 : Fin 2) * 4000 + 1 * (y' 0).val = (i' 0).val; omega
    | ⟨1, _⟩ => show win3_0.index t (1 : Fin 2) * 128 + 1 * (y' 1).val = (i' 1).val; omega
  · intro y' i' h0 h1
    show V c main_v48_0 (((cfg3.win 1).blk t).view.emb y') = V c main_v48_0 i'
    refine congrArg _ ?_
    funext a; apply Fin.ext
    match a with
    | ⟨0, _⟩ => show win3_1.index t (0 : Fin 2) * 4000 + 1 * (y' 0).val = (i' 0).val; omega
    | ⟨1, _⟩ => show win3_1.index t (1 : Fin 2) * 128 + 1 * (y' 1).val = (i' 1).val; omega
  · intro y' i' h0
    show V c main_v15 (((cfg3.win 2).blk t).view.emb y') = V c main_v15 i'
    refine congrArg _ ?_
    funext a; apply Fin.ext
    match a with
    | ⟨0, _⟩ => show win3_2.index t (0 : Fin 2) * 4000 + 1 * (y' 0).val = (i' 0).val; omega
    | ⟨1, _⟩ =>
      show win3_2.index t (1 : Fin 2) * 1 + 1 * (y' 1).val = (i' 1).val
      have hy : (y' 1).val < 1 := (y' 1).isLt
      have hi : (i' 1).val < 1 := (i' 1).isLt
      omega
  · intro k
    show V c main_v62 (((cfg3.win 3).blk t).view.emb k) = V c main_v62 k
    refine congrArg _ ?_
    funext a; apply Fin.ext
    match a with
    | ⟨0, _⟩ => show win3_3.index t (0 : Fin 2) * 1 + 1 * (k 0).val = (k 0).val; omega
    | ⟨1, _⟩ => show win3_3.index t (1 : Fin 2) * 128 + 1 * (k 1).val = (k 1).val; omega

/-- What point `t` writes back is block `t` of the whole arrays' epilogue. -/
theorem flushed3_4 (c : Dev nD) (t : Fin cfg3.N) :
    (dat3 V c).flushed 4 t = ((cfg3.win 4).blk t).view.read (Elt Ideal)
      (epi hc hr hz (V c main_v61) (V c main_v48_0) (V c main_v15) (V c main_v62)) := by
  show (cfg3.win 4).cut (grid3.coords t) ((dat3 V c).after 4 t) = _
  rw [after3_4]
  unfold out3_4
  rw [View.canon_unit_zero zero2]
  simp only [View.ld_unit_zero (S := S4000x128) zero2, View.ld_unit_zero (S := S4000x1) zero2, View.ld_unit_zero (S := S1x128) zero2]
  obtain ⟨-, -, -, -, -, -, -, -, e40, e41⟩ := idx3 t
  funext j
  refine pay3 V hc hr hz c t j _ ?_ ?_
  · show win3_4.index t (0 : Fin 2) * 4000 + 1 * (j 0).val = t.val * 4000 + (j 0).val; omega
  · show win3_4.index t (1 : Fin 2) * 128 + 1 * (j 1).val = (j 1).val; omega

/-- An index of the array is in point `t`'s block iff each coordinate is in the block's range on its axis. -/
theorem mem_blk3_4 (t : Fin cfg3.N) (i : S100000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v63).slice (win3_4.rect t)).set ↔ _
  rw [View.set_slice_whole, Rect.mem_set_unit]
  exact Iff.rfl

/-- Row `r` lies in the block of point `r / 4000`. -/
def pointOf3 (i : S100000x128.Idx) : Fin cfg3.N := ⟨(i 0).val / 4000, by
  have h : (i 0).val < 100000 := (i 0).isLt
  rw [show cfg3.N = 25 from N_3]; omega⟩

theorem cover3_4a (i : S100000x128.Idx) :
    ∃ t : Fin cfg3.N, (cfg3.win 4).flush t = true ∧ i ∈ ((cfg3.win 4).blk t).view.set := by
  have h0 : (i 0).val < 100000 := (i 0).isLt
  have h1 : (i 1).val < 128 := (i 1).isLt
  obtain ⟨-, -, -, -, -, -, -, -, e40, e41⟩ := idx3 (pointOf3 i)
  have ht : (pointOf3 i).val = (i 0).val / 4000 := rfl
  refine ⟨pointOf3 i, flush3_4 _, ?_⟩
  rw [mem_blk3_4]
  intro a
  match a with
  | ⟨0, _⟩ => show win3_4.index (pointOf3 i) (0 : Fin 2) * 4000 ≤ (i 0).val ∧ (i 0).val < win3_4.index (pointOf3 i) (0 : Fin 2) * 4000 + 4000; omega
  | ⟨1, _⟩ => show win3_4.index (pointOf3 i) (1 : Fin 2) * 128 ≤ (i 1).val ∧ (i 1).val < win3_4.index (pointOf3 i) (1 : Fin 2) * 128 + 128; omega

/-- THE ARRAY after the second epilogue call: the whole arrays' epilogue of what the region found. -/
theorem final3_4 (c : Dev nD) :
    (dat3 V c).arrAt 4 cfg3.N = epi hc hr hz (V c main_v61) (V c main_v48_0) (V c main_v15) (V c main_v62) :=
  (dat3 V c).arrAt_eq_of_cover 4 _ (fun t _ => flushed3_4 V hc hr hz c t) cover3_4a

end Cert.KernelIdeal.RegionValue

end
-- ==== Proof.Chain8.lean ====
/-
  The idealized kernel's buffers after the host operations of the second layer and after its second epilogue call.

  As in the first layer: the host gathers the rows of the second dense product, weights them, scatter-adds them into
  their destination rows and lays the second bias out as a row; the epilogue call then leaves its output array at the
  reference's second layer.
-/
import proofs.«136952_j80934363726533_2_alg».proof.Proof.Chain6
import proofs.«136952_j80934363726533_2_alg».proof.Proof.RegionEpi3

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the host operations between the second matmul call and the second epilogue call -/

/-- The aggregated messages of the second layer. -/
theorem at8_v61 : W8 m ρ c (Proc.devRef .tc main_v61)
    = Cert.ReferenceIdeal.Stages.agg (Cert.ReferenceIdeal.Stages.msgs (H2 m c) (Cert.ReferenceIdeal.Stages.normcol (edges m c)) (edges m c)) (edges m c) := by
  show StableHlo.after hostOps3 (W7 m ρ c) (Proc.devRef .tc main_v61) = _
  after_results_simp
  rw [at7_v1, at7_v3, at7_v31, at7_v48_1]
  exact Eq.trans (b := Cert.ReferenceIdeal.Stages.agg (Cert.ReferenceIdeal.Stages.msgsK (H2 m c) (Cert.ReferenceIdeal.Stages.normcol (edges m c)) (edges m c)) (edges m c)) rfl
    (congrArg (fun u => Cert.ReferenceIdeal.Stages.agg u (edges m c)) (Cert.ReferenceIdeal.Stages.msgs_comm _ _ _))

/-- The second bias as a row. -/
theorem at8_v62 : W8 m ρ c (Proc.devRef .tc main_v62) = Cert.ReferenceIdeal.Stages.brow (m ((c : Thread nD τ).loc main_arg5)) := by
  show StableHlo.after hostOps3 (W7 m ρ c) (Proc.devRef .tc main_v62) = _
  after_results_simp
  rw [at7_arg5]
  exact (Cert.Lib.ReshapeRow.shapeCast_eq_inDim (b := 128) (by omega) _ _ _).trans rfl

theorem at8_v48_0 : W8 m ρ c (Proc.devRef .tc main_v48_0) = H2 m c := by
  show StableHlo.after hostOps3 (W7 m ρ c) (Proc.devRef .tc main_v48_0) = _
  after_results_simp
  exact at7_v48_0 m ρ c
theorem at8_v1 : W8 m ρ c (Proc.devRef .tc main_v1) = Cert.ReferenceIdeal.Stages.srcv (edges m c) := by
  show StableHlo.after hostOps3 (W7 m ρ c) (Proc.devRef .tc main_v1) = _
  after_results_simp
  exact at7_v1 m ρ c
theorem at8_v3 : W8 m ρ c (Proc.devRef .tc main_v3) = Cert.ReferenceIdeal.Stages.dstv (edges m c) := by
  show StableHlo.after hostOps3 (W7 m ρ c) (Proc.devRef .tc main_v3) = _
  after_results_simp
  exact at7_v3 m ρ c
theorem at8_v15 : W8 m ρ c (Proc.devRef .tc main_v15) = Cert.ReferenceIdeal.Stages.dinv2col (edges m c) := by
  show StableHlo.after hostOps3 (W7 m ρ c) (Proc.devRef .tc main_v15) = _
  after_results_simp
  exact at7_v15 m ρ c
theorem at8_v31 : W8 m ρ c (Proc.devRef .tc main_v31) = Cert.ReferenceIdeal.Stages.normcol (edges m c) := by
  show StableHlo.after hostOps3 (W7 m ρ c) (Proc.devRef .tc main_v31) = _
  after_results_simp
  exact at7_v31 m ρ c
theorem at8_arg6 : W8 m ρ c (Proc.devRef .tc main_arg6) = m ((c : Thread nD τ).loc main_arg6) := by
  show StableHlo.after hostOps3 (W7 m ρ c) (Proc.devRef .tc main_arg6) = _
  after_results_simp
  exact at7_arg6 m ρ c
theorem at8_arg7 : W8 m ρ c (Proc.devRef .tc main_arg7) = m ((c : Thread nD τ).loc main_arg7) := by
  show StableHlo.after hostOps3 (W7 m ρ c) (Proc.devRef .tc main_arg7) = _
  after_results_simp
  exact at7_arg7 m ρ c

/-! ## After the second epilogue call -/

theorem at9_v63 : W9 m ρ c (Proc.devRef .tc main_v63) = X2 m c := by
  refine (W9_arr m ρ c 4).trans ?_
  rw [Cert.KernelIdeal.RegionValue.final3_4 (V8 m ρ) Cert.ReferenceIdeal.Facts₀.bcast_S100000x1_S100000x128_0_1 Cert.ReferenceIdeal.Facts₀.bcast_S1x128_S100000x128_0_1 Cert.ReferenceIdeal.Facts₀.bcast_S_S100000x128]
  show Cert.BlockLaws.epi _ _ _ (W8 m ρ c (Proc.devRef .tc main_v61)) (W8 m ρ c (Proc.devRef .tc main_v48_0))
    (W8 m ρ c (Proc.devRef .tc main_v15)) (W8 m ρ c (Proc.devRef .tc main_v62)) = _
  rw [at8_v61, at8_v48_0, at8_v15, at8_v62]
  exact Cert.ReferenceIdeal.Stages.close_eq_epi _ _ _ _

theorem at9_v1 : W9 m ρ c (Proc.devRef .tc main_v1) = Cert.ReferenceIdeal.Stages.srcv (edges m c) :=
  (W9_of_ne m ρ c main_v1 (by decide)).trans (at8_v1 m ρ c)
theorem at9_v3 : W9 m ρ c (Proc.devRef .tc main_v3) = Cert.ReferenceIdeal.Stages.dstv (edges m c) :=
  (W9_of_ne m ρ c main_v3 (by decide)).trans (at8_v3 m ρ c)
/-- The `dinv²` column is one of the call's input arrays: the call leaves it as it found it. -/
theorem at9_v15 : W9 m ρ c (Proc.devRef .tc main_v15) = Cert.ReferenceIdeal.Stages.dinv2col (edges m c) :=
  (W9_arr m ρ c 2).trans ((((dat3 (V8 m ρ) c).arrAt_in 2 rfl _).trans (A_eq3 (V8 m ρ) c 2)).trans (at8_v15 m ρ c))
theorem at9_v31 : W9 m ρ c (Proc.devRef .tc main_v31) = Cert.ReferenceIdeal.Stages.normcol (edges m c) :=
  (W9_of_ne m ρ c main_v31 (by decide)).trans (at8_v31 m ρ c)
theorem at9_arg6 : W9 m ρ c (Proc.devRef .tc main_arg6) = m ((c : Thread nD τ).loc main_arg6) :=
  (W9_of_ne m ρ c main_arg6 (by decide)).trans (at8_arg6 m ρ c)
theorem at9_arg7 : W9 m ρ c (Proc.devRef .tc main_arg7) = m ((c : Thread nD τ).loc main_arg7) :=
  (W9_of_ne m ρ c main_arg7 (by decide)).trans (at8_arg7 m ρ c)

/-! ## The result: the last layer on the host -/

/-- Widening the short float format is the identity at the ideal values. -/
theorem widen_ident {s : Shape} (v : FVec Ideal s .bf16) (h : FTy.bf16.bits < FTy.f32.bits) : extf .f32 v h = v := rfl

/-- After the last stretch of host operations the result array holds the reference's whole function of the
    launched arguments. -/
theorem at10_result : W10 m ρ c (Proc.devRef .tc main_v87)
    = Cert.ReferenceIdeal.Stages.whole (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  show StableHlo.after hostOps4 (W9 m ρ c) (Proc.devRef .tc main_v87) = _
  after_results_simp
  rw [at9_v1, at9_v3, at9_v15, at9_v31, at9_v63, at9_arg6, at9_arg7, widen_ident]
  exact Eq.trans (b := Cert.ReferenceIdeal.Stages.last (Cert.ReferenceIdeal.Stages.mm3 (X2 m c) (m ((c : Thread nD τ).loc main_arg6))) (Cert.ReferenceIdeal.Stages.normcol (edges m c))
    (Cert.ReferenceIdeal.Stages.dinv2col (edges m c)) (edges m c) (m ((c : Thread nD τ).loc main_arg7))) rfl rfl

end Cert.KernelIdeal.Chain

end
-- ==== Proof.lean ====
/-
  The certificate: a three-layer graph convolution whose dense parts run in four pipelined kernel calls, against the
  plain reference, at the ideal values.

  Both programs compute, per layer, `agg + dinv² · (x W) + b` with `agg` the scatter-add over the edges of
  `norm[e] · (x W)[src e]` into row `dst e`; the first two layers end in `max (·, 0)`, the last in the logistic function.
  The kernel's program computes the graph quantities (`dinv`, `norm`, `dinv²`) once where the reference recomputes them
  per layer, forms the dense products `x W` block by block on the matrix unit (in a short float format, which is the
  identity at the ideal values) and the epilogues block by block on the vector unit, multiplies `h[src e] · norm[e]`
  in the other order, and lays two columns and two rows out by a reshape where the reference spreads a vector along a
  new axis. None of this changes an extended real: the only laws used are the commutativity of the product and the
  fact that a block of rows of a product or of a pointwise expression is the product or the expression of the rows.
  No finiteness is needed.

  The frames of the two kernel programs are the generated ones; the reference's frame is its run with the result
  dropped; the idealization rewrote nothing.
-/
import proofs.«136952_j80934363726533_2_alg».proof.Defs
import proofs.«136952_j80934363726533_2_alg».proof.Proof.Gen.Kernel
import proofs.«136952_j80934363726533_2_alg».proof.Proof.Gen.Kernel.Frame
import proofs.«136952_j80934363726533_2_alg».proof.Proof.Gen.KernelIdeal
import proofs.«136952_j80934363726533_2_alg».proof.Proof.Gen.KernelIdeal.Frame
import proofs.«136952_j80934363726533_2_alg».proof.Proof.Gen.ReferenceIdeal
import proofs.«136952_j80934363726533_2_alg».proof.Proof.Gen.Pre_finite_inputs
import proofs.«136952_j80934363726533_2_alg».proof.Proof.KernelRun
import proofs.«136952_j80934363726533_2_alg».proof.Proof.RefRun
import proofs.«136952_j80934363726533_2_alg».proof.Proof.RefStages
import proofs.«136952_j80934363726533_2_alg».proof.Proof.Chain8
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the reference's whole function of the (agreeing) arguments in their result arrays. -/
theorem algebraic : Cert.algebraic_KernelIdeal_ReferenceIdeal := by
  intro m ρ m' ρ' _ hagree
  refine ⟨fun c => Cert.ReferenceIdeal.Stages.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.at10_result m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Stages.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
